-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x1 .f32) (main_arg12 : FVec F S1 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S850000x128 : Shape := ⟨2, ![850000, 128]⟩
abbrev S1x128 : Shape := ⟨2, ![1, 128]⟩
abbrev S64x128 : Shape := ⟨2, ![64, 128]⟩
abbrev S64x64 : Shape := ⟨2, ![64, 64]⟩
abbrev S1x64 : Shape := ⟨2, ![1, 64]⟩
abbrev S1x1 : Shape := ⟨2, ![1, 1]⟩

abbrev nBuf : Space → Nat
  | .hbm => 133
  | .vmem => 15
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S50000, .i32⟩
  | 18 => ⟨S850000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .f32⟩
  | 29 => ⟨S50000, .f32⟩
  | 30 => ⟨S50000x1, .f32⟩
  | 31 => ⟨S50000x128, .f32⟩
  | 32 => ⟨S50000x128, .f32⟩
  | 33 => ⟨S50000x128, .f32⟩
  | 34 => ⟨S50000x128, .bf16⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000x128, .bf16⟩
  | 44 => ⟨S850000x128, .f32⟩
  | 45 => ⟨S_, .f32⟩
  | 46 => ⟨S50000x128, .f32⟩
  | 47 => ⟨S850000x1, .i32⟩
  | 48 => ⟨S50000x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S50000x128, .f32⟩
  | 58 => ⟨S50000x128, .f32⟩
  | 59 => ⟨S50000x128, .f32⟩
  | 60 => ⟨S50000x128, .bf16⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x128, .bf16⟩
  | 70 => ⟨S850000x128, .f32⟩
  | 71 => ⟨S_, .f32⟩
  | 72 => ⟨S50000x128, .f32⟩
  | 73 => ⟨S850000x1, .i32⟩
  | 74 => ⟨S50000x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S50000x128, .f32⟩
  | 84 => ⟨S50000x128, .f32⟩
  | 85 => ⟨S50000x128, .f32⟩
  | 86 => ⟨S50000x128, .bf16⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x128, .bf16⟩
  | 96 => ⟨S850000x128, .f32⟩
  | 97 => ⟨S_, .f32⟩
  | 98 => ⟨S50000x128, .f32⟩
  | 99 => ⟨S850000x1, .i32⟩
  | 100 => ⟨S50000x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S64x128, .f32⟩
  | 108 => ⟨S50000x1, .i32⟩
  | 109 => ⟨S64x128, .f32⟩
  | 110 => ⟨S_, .f32⟩
  | 111 => ⟨S50000, .f32⟩
  | 112 => ⟨S_, .f32⟩
  | 113 => ⟨S64, .f32⟩
  | 114 => ⟨S50000x1, .i32⟩
  | 115 => ⟨S64, .f32⟩
  | 116 => ⟨S_, .f32⟩
  | 117 => ⟨S64, .f32⟩
  | 118 => ⟨S64, .f32⟩
  | 119 => ⟨S64x1, .f32⟩
  | 120 => ⟨S64x128, .f32⟩
  | 121 => ⟨S64x128, .f32⟩
  | 122 => ⟨S64x64, .f32⟩
  | 123 => ⟨S1x64, .f32⟩
  | 124 => ⟨S64x64, .f32⟩
  | 125 => ⟨S64x64, .f32⟩
  | 126 => ⟨S_, .f32⟩
  | 127 => ⟨S64x64, .f32⟩
  | _ => ⟨S50000x128, .f32⟩

abbrev hbmTy0_1 (i : Nat) : BufTy := match i % 128 with
  | 0 => ⟨S64x64, .f32⟩
  | 1 => ⟨S64x1, .f32⟩
  | 2 => ⟨S1x1, .f32⟩
  | 3 => ⟨S64x1, .f32⟩
  | 4 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_cst : Ref sig .tc := ⟨.hbm, 54, rfl⟩
abbrev main_call0_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_4 : Ref sig .tc := ⟨.hbm, 61, rfl⟩
abbrev main_v40 : Ref sig .tc := ⟨.hbm, 62, rfl⟩
abbrev main_v41 : Ref sig .tc := ⟨.hbm, 63, rfl⟩
abbrev main_c_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call1_cst : Ref sig .tc := ⟨.hbm, 80, rfl⟩
abbrev main_call1_v0 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_7 : Ref sig .tc := ⟨.hbm, 87, rfl⟩
abbrev main_v61 : Ref sig .tc := ⟨.hbm, 88, rfl⟩
abbrev main_v62 : Ref sig .tc := ⟨.hbm, 89, rfl⟩
abbrev main_c_8 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_9 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_10 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_11 : Ref sig .tc := ⟨.hbm, 110, rfl⟩
abbrev main_v80 : Ref sig .tc := ⟨.hbm, 111, rfl⟩
abbrev main_cst_12 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_13 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call2_cst : Ref sig .tc := ⟨.hbm, 126, rfl⟩
abbrev main_call2_v0 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64x64 : Shape := ⟨2, ![64, 64]⟩
abbrev S1x64 : Shape := ⟨2, ![1, 64]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S50000, .i32⟩
  | 18 => ⟨S850000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x128, .f32⟩
  | 82 => ⟨S850000x1, .f32⟩
  | 83 => ⟨S850000x128, .f32⟩
  | 84 => ⟨S850000x128, .f32⟩
  | 85 => ⟨S_, .f32⟩
  | 86 => ⟨S50000x128, .f32⟩
  | 87 => ⟨S850000x1, .i32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x128, .f32⟩
  | 105 => ⟨S850000x1, .f32⟩
  | 106 => ⟨S850000x128, .f32⟩
  | 107 => ⟨S850000x128, .f32⟩
  | 108 => ⟨S_, .f32⟩
  | 109 => ⟨S50000x128, .f32⟩
  | 110 => ⟨S850000x1, .i32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S64x128, .f32⟩
  | 117 => ⟨S50000x1, .i32⟩
  | 118 => ⟨S64x128, .f32⟩
  | 119 => ⟨S_, .f32⟩
  | 120 => ⟨S50000, .f32⟩
  | 121 => ⟨S_, .f32⟩
  | 122 => ⟨S64, .f32⟩
  | 123 => ⟨S50000x1, .i32⟩
  | 124 => ⟨S64, .f32⟩
  | 125 => ⟨S_, .f32⟩
  | 126 => ⟨S64, .f32⟩
  | 127 => ⟨S64, .f32⟩
  | _ => ⟨S50000x128, .f32⟩

abbrev hbmTy0_1 (i : Nat) : BufTy := match i % 128 with
  | 0 => ⟨S64x1, .f32⟩
  | 1 => ⟨S64x128, .f32⟩
  | 2 => ⟨S64x128, .f32⟩
  | 3 => ⟨S64x64, .f32⟩
  | 4 => ⟨S1x64, .f32⟩
  | 5 => ⟨S64x64, .f32⟩
  | 6 => ⟨S64x64, .f32⟩
  | 7 => ⟨S_, .f32⟩
  | 8 => ⟨S64x64, .f32⟩
  | 9 => ⟨S64x64, .f32⟩
  | 10 => ⟨S64x1, .f32⟩
  | 11 => ⟨S1x1, .f32⟩
  | 12 => ⟨S64x1, .f32⟩
  | 13 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call0_cst : Ref sig .tc := ⟨.hbm, 69, rfl⟩
abbrev main_call0_v0 : Ref sig .tc := ⟨.hbm, 70, rfl⟩
abbrev main_v46 : Ref sig .tc := ⟨.hbm, 71, rfl⟩
abbrev main_v47 : Ref sig .tc := ⟨.hbm, 72, rfl⟩
abbrev main_c_8 : Ref sig .tc := ⟨.hbm, 73, rfl⟩
abbrev main_v48 : Ref sig .tc := ⟨.hbm, 74, rfl⟩
abbrev main_v49 : Ref sig .tc := ⟨.hbm, 75, rfl⟩
abbrev main_c_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call1_cst : Ref sig .tc := ⟨.hbm, 92, rfl⟩
abbrev main_call1_v0 : Ref sig .tc := ⟨.hbm, 93, rfl⟩
abbrev main_v64 : Ref sig .tc := ⟨.hbm, 94, rfl⟩
abbrev main_v65 : Ref sig .tc := ⟨.hbm, 95, rfl⟩
abbrev main_c_11 : Ref sig .tc := ⟨.hbm, 96, rfl⟩
abbrev main_v66 : Ref sig .tc := ⟨.hbm, 97, rfl⟩
abbrev main_v67 : Ref sig .tc := ⟨.hbm, 98, rfl⟩
abbrev main_c_12 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_14 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_15 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_17 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_call2_cst : Ref sig .tc := ⟨.hbm, 135, rfl⟩
abbrev main_call2_v0 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.MatSpec.lean ====
/-
  The plain matrix product as one function of two whole arrays.

  Entry (p, q) of the product of an M×K array and a K×N array is the sum over l of X(p, l) · W(l, q), on the extended
  reals. A matmul tiled over blocks of rows and a single product of the whole arrays both denote this function.
-/
import Idealize.ShloMosaic.Lib.ValueIdx

noncomputable section

open scoped BigOperators

namespace Cert.MatSpec

open Idealize.ShloMosaic Idealize.ShloMosaic.ValueIdx

/-- The product of an `M×K` array and a `K×N` array: entry `(p, q)` is `∑ l, X (p, l) * W (l, q)`. -/
def mm {M K N : ℕ} (X : (⟨2, ![M, K]⟩ : Shape).Idx → EReal) (W : (⟨2, ![K, N]⟩ : Shape).Idx → EReal) :
    (⟨2, ![M, N]⟩ : Shape).Idx → EReal :=
  fun j => ∑ l : Fin K, X (ix2 (j 0 : Fin M) l) * W (ix2 l (j 1 : Fin N))

/-- The product read at explicit coordinates. -/
theorem mm_apply {M K N : ℕ} (X : (⟨2, ![M, K]⟩ : Shape).Idx → EReal) (W : (⟨2, ![K, N]⟩ : Shape).Idx → EReal)
    (p : Fin M) (q : Fin N) : mm X W (ix2 p q) = ∑ l : Fin K, X (ix2 p l) * W (ix2 l q) := rfl

end Cert.MatSpec

end
-- ==== Proof.LibRegionAsOp.lean ====
/-
  A kernel region read as one host operation, and a fold over a concatenation.

  A pallas_call's region changes the buffer contents only at its arrays: each ends at what the pipeline's write-backs
  leave, every other buffer keeps what it held. A host operation changes the contents only at its result buffer. So when
  a valuation agrees with the region's exit contents at each array and with the entry contents everywhere else, it IS
  the region's exit valuation; in particular a region whose one output array ends at a function of its (unchanged) input
  arrays leaves exactly what the host operation computing that function would.
-/
import Idealize.ShloMosaic.Lib.Pipeline.FrameSuffix
import Idealize.ShloMosaic.Lib.StableHlo.Run

noncomputable section

namespace Cert.LibRegionAsOp

open Idealize.ShloMosaic Idealize.SL.Sem

variable {nD : Nat} {τ : Topo} {sig : RefSig} {Val : EltTy → Type}

/-- The contents after two lines of operations run one after the other are those after their concatenation. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The contents after a one-operation line. -/
theorem after_single (op : HloOp τ sig Val) (V : Valuation τ sig Val) : StableHlo.after [op] V = op.result V := rfl

/-- A region's exit valuation (its arrays at `A`, everything else as entered) is any valuation `V'` that holds `A` at
    the arrays and the entry contents `V` at every other buffer. -/
theorem withArrays_eq_of {gr W : Nat} (win : Fin W → Pipeline.WinSpec sig gr)
    (hinj : Function.Injective (Pipeline.arrRef win)) (c : Dev nD) (V V' : Valuation τ sig Val)
    (A : (w : Fin W) → Buf Val ((win w).arr.view.loc (c.tc : Thread nD τ)))
    (harr : ∀ w, V' (Proc.devRef .tc (Pipeline.arrRef win w)) = A w)
    (hrest : ∀ b : DevRef τ sig, (∀ w, Proc.devRef .tc (Pipeline.arrRef win w) ≠ b) → V' b = V b) :
    Pipeline.withArrays win c V A = V' := by
  funext b
  by_cases h : ∃ w, Proc.devRef .tc (Pipeline.arrRef win w) = b
  · obtain ⟨w, rfl⟩ := h
    rw [Pipeline.withArrays_arr win hinj, harr]
  · unfold Pipeline.withArrays
    rw [dif_neg h, hrest b fun w e => h ⟨w, e⟩]

end Cert.LibRegionAsOp

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.RegionMatmulPayload.lean ====
/-
  The body of each tiled matmul region, read at one entry.

  A region's body takes a 5000×128 block of the left array and the whole 128×128 right array, rounds both to a
  narrower float format, and multiplies them into a zero accumulator. At the ideal values the rounding changes
  nothing, so entry (p, q) of what the body stores is ∑ l, x0 (p, l) · x1 (l, q). Two of the three bodies first
  reshape the left block to the shape it already has, which is the identity.
-/
import proofs.«125503_j67216238182901_2_alg».proof.Proof.Gen.KernelIdeal.Skeleton
import proofs.«125503_j67216238182901_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, however they are spelt. -/
theorem hz : (![0, 0] : Fin 2 → Nat) = fun _ => 0 := funext fun a => by fin_cases a <;> rfl

/-- The printed dimension numbers are those of a plain 5000×128 by 128×128 product. -/
theorem dot_plain : dot_S5000x128_S128x128_S5000x128_1_0_0_1_n_n = DotDims.plain 5000 128 128 := rfl

/-- The payload of region 0's body at entry (p, q): both operands are rounded to a narrower format, which changes
    nothing at the ideal values, and multiplied into a zero accumulator, so the entry is the textbook sum over the
    contraction index. -/
theorem pay0_apply (x0 : Vec Ideal S5000x128 .f32) (x1 : Vec Ideal S128x128 .f32) (p : Fin 5000) (q : Fin 128) :
    Gen.k0_pay1 x0 x1 (ix2 p q) = ∑ l : Fin 128, x0 (ix2 p l) * x1 (ix2 l q) := by
  unfold Gen.k0_pay1
  exact Cert.LibPlainDot.matmul_zero_apply (M := 5000) (K := 128) (N := 128) none
    (truncf .bf16 x0 bitsLt_bf16_f32) (truncf .bf16 x1 bitsLt_bf16_f32) p q

/-- The payload of region 1's body at entry (p, q): both operands are rounded to a narrower format, which changes
    nothing at the ideal values, and multiplied into a zero accumulator, so the entry is the textbook sum over the
    contraction index. The reshape of the left block to its own shape is the identity. -/
theorem pay1_apply (x0 : Vec Ideal S5000x128 .f32) (x1 : Vec Ideal S128x128 .f32) (p : Fin 5000) (q : Fin 128) :
    Gen.k1_pay1 x0 x1 (ix2 p q) = ∑ l : Fin 128, x0 (ix2 p l) * x1 (ix2 l q) := by
  unfold Gen.k1_pay1
  rw [shapeCast_self x0 shapeCasts_S5000x128_S5000x128]
  exact Cert.LibPlainDot.matmul_zero_apply (M := 5000) (K := 128) (N := 128) none
    (truncf .bf16 x0 bitsLt_bf16_f32) (truncf .bf16 x1 bitsLt_bf16_f32) p q

/-- The payload of region 2's body at entry (p, q): both operands are rounded to a narrower format, which changes
    nothing at the ideal values, and multiplied into a zero accumulator, so the entry is the textbook sum over the
    contraction index. The reshape of the left block to its own shape is the identity. -/
theorem pay2_apply (x0 : Vec Ideal S5000x128 .f32) (x1 : Vec Ideal S128x128 .f32) (p : Fin 5000) (q : Fin 128) :
    Gen.k2_pay1 x0 x1 (ix2 p q) = ∑ l : Fin 128, x0 (ix2 p l) * x1 (ix2 l q) := by
  unfold Gen.k2_pay1
  rw [shapeCast_self x0 shapeCasts_S5000x128_S5000x128]
  exact Cert.LibPlainDot.matmul_zero_apply (M := 5000) (K := 128) (N := 128) none
    (truncf .bf16 x0 bitsLt_bf16_f32) (truncf .bf16 x1 bitsLt_bf16_f32) p q

end Cert.KernelIdeal.RegionValue

end
-- ==== Proof.RegionMatmul0.lean ====
/-
  Tiled matmul region 0: after it, `main_v15` is the plain product of `main_arg0` and `main_arg3`.

  The region walks ten grid points. At point t it loads rows 5000·t … 5000·t + 4999 of the left array (all 128
  columns) and the whole right array, multiplies them, and writes the 5000×128 result to the same rows of the output.
  Entry (r, q) of the product is ∑ l, X (r, l) · W (l, q), which needs only row r of X: so what point t writes is
  exactly block t of the product of the whole arrays, and since row r lies in the block of point r / 5000 the ten
  blocks tile the output. The two input arrays are never written back.
-/
import proofs.«125503_j67216238182901_2_alg».proof.Proof.Gen.KernelIdeal.Frame
import proofs.«125503_j67216238182901_2_alg».proof.Proof.MatSpec
import proofs.«125503_j67216238182901_2_alg».proof.Proof.RegionMatmulPayload
import Idealize.ShloMosaic.Lib.Pipeline.Value
import Idealize.ShloMosaic.Lib.ValueIdx

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open Cert.MatSpec

variable (V : (c : Dev nD) → (b : Ref sig .tc) → Buf (Elt Ideal) ((c : Thread nD τ).loc b)) (c : Dev nD)

/-- The printed index maps of region 0, decided over its ten grid points: the left operand and the output move
    down one block of rows per point and never sideways; the right operand stays at its one block. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t's block of the left operand, at local (p, l), sits at row 5000·t + p, column l of the array. -/
theorem embX0 (t : Fin cfg0.N) (p : Fin 5000) (l : Fin 128) (r : Fin 50000) (hr : r.val = 5000 * t.val + p.val) :
    ((cfg0.win 0).blk t).view.emb (ix2 p l) = (ix2 r l : S50000x128.Idx) := by
  obtain ⟨e0, e1, -⟩ := idx0 t
  funext a; apply Fin.ext
  match a with
  | ⟨0, _⟩ => show win0_0.index t (0 : Fin 2) * 5000 + 1 * p.val = r.val; omega
  | ⟨1, _⟩ => show win0_0.index t (1 : Fin 2) * 128 + 1 * l.val = l.val; omega

/-- Every point's block of the right operand is the whole array. -/
theorem embW0 (t : Fin cfg0.N) (l : Fin 128) (q : Fin 128) :
    ((cfg0.win 1).blk t).view.emb (ix2 l q) = (ix2 l q : S128x128.Idx) := by
  obtain ⟨-, -, e0, e1, -⟩ := idx0 t
  funext a; apply Fin.ext
  match a with
  | ⟨0, _⟩ => show win0_1.index t (0 : Fin 2) * 128 + 1 * l.val = l.val; omega
  | ⟨1, _⟩ => show win0_1.index t (1 : Fin 2) * 128 + 1 * q.val = q.val; omega

/-- Point t's block of the output, at local (p, q), sits at row 5000·t + p, column q of the array. -/
theorem embO0 (t : Fin cfg0.N) (p : Fin 5000) (q : Fin 128) (r : Fin 50000) (hr : r.val = 5000 * t.val + p.val) :
    ((cfg0.win 2).blk t).view.emb (ix2 p q) = (ix2 r q : S50000x128.Idx) := by
  obtain ⟨-, -, -, -, e0, e1⟩ := idx0 t
  funext a; apply Fin.ext
  match a with
  | ⟨0, _⟩ => show win0_2.index t (0 : Fin 2) * 5000 + 1 * p.val = r.val; omega
  | ⟨1, _⟩ => show win0_2.index t (1 : Fin 2) * 128 + 1 * q.val = q.val; omega

/-- What point t writes back is block t of the product of the two arrays as the region finds them: row 5000·t + p of
    the product only needs row 5000·t + p of the left array, which is local row p of the block the point loaded. -/
theorem flushed0_eq (t : Fin cfg0.N) :
    (Gen.dat0 (F := Ideal) V c).flushed 2 t
      = ((cfg0.win 2).blk t).view.read (Elt Ideal)
          (mm (M := 50000) (K := 128) (N := 128) (V c main_arg0) (V c main_arg3)) := by
  show (cfg0.win 2).cut (grid0.coords t) ((Gen.dat0 (F := Ideal) V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  have ht : t.val < 10 := t.isLt
  have hp : p.val < 5000 := p.isLt
  have hr : 5000 * t.val + p.val < 50000 := by omega
  show Gen.k0_pay1 (iblk0 V c 0 t) (iblk0 V c 1 t) (ix2 p q)
      = mm (M := 50000) (K := 128) (N := 128) (V c main_arg0) (V c main_arg3) (((cfg0.win 2).blk t).view.emb (ix2 p q))
  rw [embO0 t p q ⟨5000 * t.val + p.val, hr⟩ rfl, mm_apply]
  refine (pay0_apply (iblk0 V c 0 t) (iblk0 V c 1 t) p q).trans ?_
  refine Finset.sum_congr rfl fun l _ => ?_
  congr 1
  · show V c main_arg0 (((cfg0.win 0).blk t).view.emb (ix2 p l)) = V c main_arg0 (ix2 ⟨5000 * t.val + p.val, hr⟩ l)
    rw [embX0 t p l ⟨5000 * t.val + p.val, hr⟩ rfl]
  · show V c main_arg3 (((cfg0.win 1).blk t).view.emb (ix2 l q)) = V c main_arg3 (ix2 l q)
    rw [embW0 t l q]

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v15).slice (win0_2.rect t)).set ↔ _
  rw [View.set_slice_whole, Rect.mem_set_unit]
  exact Iff.rfl

/-- The ten blocks of rows tile the output array: row r is in the block of point r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hq : (i 0).val / 5000 < 10 := by omega
  obtain ⟨t, ht⟩ : ∃ t : Fin cfg0.N, t.val = (i 0).val / 5000 := ⟨⟨(i 0).val / 5000, hq⟩, rfl⟩
  obtain ⟨-, -, -, -, e0, e1⟩ := idx0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After region 0, its output array is the plain product of its two input arrays as the region found them. -/
theorem final0 : (Gen.dat0 (F := Ideal) V c).arrAt 2 cfg0.N
    = mm (M := 50000) (K := 128) (N := 128) (V c main_arg0) (V c main_arg3) :=
  (Gen.dat0 (F := Ideal) V c).arrAt_eq_of_cover 2 (mm (M := 50000) (K := 128) (N := 128) (V c main_arg0) (V c main_arg3))
    (fun t _ => flushed0_eq V c t) cover0

/-- The left input array is never written back: it ends as the region found it. -/
theorem kept0_lhs : (Gen.dat0 (F := Ideal) V c).arrAt 0 cfg0.N = (Gen.dat0 (F := Ideal) V c).A 0 :=
  (Gen.dat0 (F := Ideal) V c).arrAt_in 0 rfl _

/-- The right input array is never written back: it ends as the region found it. -/
theorem kept0_rhs : (Gen.dat0 (F := Ideal) V c).arrAt 1 cfg0.N = (Gen.dat0 (F := Ideal) V c).A 1 :=
  (Gen.dat0 (F := Ideal) V c).arrAt_in 1 rfl _

/-- Both input arrays of region 0 end as the region found them. -/
theorem kept0 (w : Fin cfg0.W) (hw : w ≠ 2) :
    (Gen.dat0 (F := Ideal) V c).arrAt w cfg0.N = (Gen.dat0 (F := Ideal) V c).A w :=
  match w, hw with
  | ⟨0, _⟩, _ => kept0_lhs V c
  | ⟨1, _⟩, _ => kept0_rhs V c
  | ⟨2, _⟩, h => absurd rfl h

end Cert.KernelIdeal.RegionValue

end
-- ==== Proof.RegionMatmul1.lean ====
/-
  Tiled matmul region 1: after it, `main_v36` is the plain product of `main_v35` and `main_arg5`.

  The region walks ten grid points. At point t it loads rows 5000·t … 5000·t + 4999 of the left array (all 128
  columns) and the whole right array, multiplies them, and writes the 5000×128 result to the same rows of the output.
  Entry (r, q) of the product is ∑ l, X (r, l) · W (l, q), which needs only row r of X: so what point t writes is
  exactly block t of the product of the whole arrays, and since row r lies in the block of point r / 5000 the ten
  blocks tile the output. The two input arrays are never written back.
-/
import proofs.«125503_j67216238182901_2_alg».proof.Proof.Gen.KernelIdeal.Frame
import proofs.«125503_j67216238182901_2_alg».proof.Proof.MatSpec
import proofs.«125503_j67216238182901_2_alg».proof.Proof.RegionMatmulPayload
import Idealize.ShloMosaic.Lib.Pipeline.Value
import Idealize.ShloMosaic.Lib.ValueIdx

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open Cert.MatSpec

variable (V : (c : Dev nD) → (b : Ref sig .tc) → Buf (Elt Ideal) ((c : Thread nD τ).loc b)) (c : Dev nD)

/-- The printed index maps of region 1, decided over its ten grid points: the left operand and the output move
    down one block of rows per point and never sideways; the right operand stays at its one block. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Point t's block of the left operand, at local (p, l), sits at row 5000·t + p, column l of the array. -/
theorem embX1 (t : Fin cfg1.N) (p : Fin 5000) (l : Fin 128) (r : Fin 50000) (hr : r.val = 5000 * t.val + p.val) :
    ((cfg1.win 0).blk t).view.emb (ix2 p l) = (ix2 r l : S50000x128.Idx) := by
  obtain ⟨e0, e1, -⟩ := idx1 t
  funext a; apply Fin.ext
  match a with
  | ⟨0, _⟩ => show win1_0.index t (0 : Fin 2) * 5000 + 1 * p.val = r.val; omega
  | ⟨1, _⟩ => show win1_0.index t (1 : Fin 2) * 128 + 1 * l.val = l.val; omega

/-- Every point's block of the right operand is the whole array. -/
theorem embW1 (t : Fin cfg1.N) (l : Fin 128) (q : Fin 128) :
    ((cfg1.win 1).blk t).view.emb (ix2 l q) = (ix2 l q : S128x128.Idx) := by
  obtain ⟨-, -, e0, e1, -⟩ := idx1 t
  funext a; apply Fin.ext
  match a with
  | ⟨0, _⟩ => show win1_1.index t (0 : Fin 2) * 128 + 1 * l.val = l.val; omega
  | ⟨1, _⟩ => show win1_1.index t (1 : Fin 2) * 128 + 1 * q.val = q.val; omega

/-- Point t's block of the output, at local (p, q), sits at row 5000·t + p, column q of the array. -/
theorem embO1 (t : Fin cfg1.N) (p : Fin 5000) (q : Fin 128) (r : Fin 50000) (hr : r.val = 5000 * t.val + p.val) :
    ((cfg1.win 2).blk t).view.emb (ix2 p q) = (ix2 r q : S50000x128.Idx) := by
  obtain ⟨-, -, -, -, e0, e1⟩ := idx1 t
  funext a; apply Fin.ext
  match a with
  | ⟨0, _⟩ => show win1_2.index t (0 : Fin 2) * 5000 + 1 * p.val = r.val; omega
  | ⟨1, _⟩ => show win1_2.index t (1 : Fin 2) * 128 + 1 * q.val = q.val; omega

/-- What point t writes back is block t of the product of the two arrays as the region finds them: row 5000·t + p of
    the product only needs row 5000·t + p of the left array, which is local row p of the block the point loaded. -/
theorem flushed1_eq (t : Fin cfg1.N) :
    (Gen.dat1 (F := Ideal) V c).flushed 2 t
      = ((cfg1.win 2).blk t).view.read (Elt Ideal)
          (mm (M := 50000) (K := 128) (N := 128) (V c main_v35) (V c main_arg5)) := by
  show (cfg1.win 2).cut (grid1.coords t) ((Gen.dat1 (F := Ideal) V c).after 2 t) = _
  rw [after1_2]
  unfold out1_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  have ht : t.val < 10 := t.isLt
  have hp : p.val < 5000 := p.isLt
  have hr : 5000 * t.val + p.val < 50000 := by omega
  show Gen.k1_pay1 (iblk1 V c 0 t) (iblk1 V c 1 t) (ix2 p q)
      = mm (M := 50000) (K := 128) (N := 128) (V c main_v35) (V c main_arg5) (((cfg1.win 2).blk t).view.emb (ix2 p q))
  rw [embO1 t p q ⟨5000 * t.val + p.val, hr⟩ rfl, mm_apply]
  refine (pay1_apply (iblk1 V c 0 t) (iblk1 V c 1 t) p q).trans ?_
  refine Finset.sum_congr rfl fun l _ => ?_
  congr 1
  · show V c main_v35 (((cfg1.win 0).blk t).view.emb (ix2 p l)) = V c main_v35 (ix2 ⟨5000 * t.val + p.val, hr⟩ l)
    rw [embX1 t p l ⟨5000 * t.val + p.val, hr⟩ rfl]
  · show V c main_arg5 (((cfg1.win 1).blk t).view.emb (ix2 l q)) = V c main_arg5 (ix2 l q)
    rw [embW1 t l q]

/-- An index of the output array is in point t's block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v36).slice (win1_2.rect t)).set ↔ _
  rw [View.set_slice_whole, Rect.mem_set_unit]
  exact Iff.rfl

/-- The ten blocks of rows tile the output array: row r is in the block of point r / 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hq : (i 0).val / 5000 < 10 := by omega
  obtain ⟨t, ht⟩ : ∃ t : Fin cfg1.N, t.val = (i 0).val / 5000 := ⟨⟨(i 0).val / 5000, hq⟩, rfl⟩
  obtain ⟨-, -, -, -, e0, e1⟩ := idx1 t
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- After region 1, its output array is the plain product of its two input arrays as the region found them. -/
theorem final1 : (Gen.dat1 (F := Ideal) V c).arrAt 2 cfg1.N
    = mm (M := 50000) (K := 128) (N := 128) (V c main_v35) (V c main_arg5) :=
  (Gen.dat1 (F := Ideal) V c).arrAt_eq_of_cover 2 (mm (M := 50000) (K := 128) (N := 128) (V c main_v35) (V c main_arg5))
    (fun t _ => flushed1_eq V c t) cover1

/-- The left input array is never written back: it ends as the region found it. -/
theorem kept1_lhs : (Gen.dat1 (F := Ideal) V c).arrAt 0 cfg1.N = (Gen.dat1 (F := Ideal) V c).A 0 :=
  (Gen.dat1 (F := Ideal) V c).arrAt_in 0 rfl _

/-- The right input array is never written back: it ends as the region found it. -/
theorem kept1_rhs : (Gen.dat1 (F := Ideal) V c).arrAt 1 cfg1.N = (Gen.dat1 (F := Ideal) V c).A 1 :=
  (Gen.dat1 (F := Ideal) V c).arrAt_in 1 rfl _

/-- Both input arrays of region 1 end as the region found them. -/
theorem kept1 (w : Fin cfg1.W) (hw : w ≠ 2) :
    (Gen.dat1 (F := Ideal) V c).arrAt w cfg1.N = (Gen.dat1 (F := Ideal) V c).A w :=
  match w, hw with
  | ⟨0, _⟩, _ => kept1_lhs V c
  | ⟨1, _⟩, _ => kept1_rhs V c
  | ⟨2, _⟩, h => absurd rfl h

end Cert.KernelIdeal.RegionValue

end
-- ==== Proof.RegionMatmul2.lean ====
/-
  Tiled matmul region 2: after it, `main_v57` is the plain product of `main_v56` and `main_arg7`.

  The region walks ten grid points. At point t it loads rows 5000·t … 5000·t + 4999 of the left array (all 128
  columns) and the whole right array, multiplies them, and writes the 5000×128 result to the same rows of the output.
  Entry (r, q) of the product is ∑ l, X (r, l) · W (l, q), which needs only row r of X: so what point t writes is
  exactly block t of the product of the whole arrays, and since row r lies in the block of point r / 5000 the ten
  blocks tile the output. The two input arrays are never written back.
-/
import proofs.«125503_j67216238182901_2_alg».proof.Proof.Gen.KernelIdeal.Frame
import proofs.«125503_j67216238182901_2_alg».proof.Proof.MatSpec
import proofs.«125503_j67216238182901_2_alg».proof.Proof.RegionMatmulPayload
import Idealize.ShloMosaic.Lib.Pipeline.Value
import Idealize.ShloMosaic.Lib.ValueIdx

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open Cert.MatSpec

variable (V : (c : Dev nD) → (b : Ref sig .tc) → Buf (Elt Ideal) ((c : Thread nD τ).loc b)) (c : Dev nD)

/-- The printed index maps of region 2, decided over its ten grid points: the left operand and the output move
    down one block of rows per point and never sideways; the right operand stays at its one block. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Point t's block of the left operand, at local (p, l), sits at row 5000·t + p, column l of the array. -/
theorem embX2 (t : Fin cfg2.N) (p : Fin 5000) (l : Fin 128) (r : Fin 50000) (hr : r.val = 5000 * t.val + p.val) :
    ((cfg2.win 0).blk t).view.emb (ix2 p l) = (ix2 r l : S50000x128.Idx) := by
  obtain ⟨e0, e1, -⟩ := idx2 t
  funext a; apply Fin.ext
  match a with
  | ⟨0, _⟩ => show win2_0.index t (0 : Fin 2) * 5000 + 1 * p.val = r.val; omega
  | ⟨1, _⟩ => show win2_0.index t (1 : Fin 2) * 128 + 1 * l.val = l.val; omega

/-- Every point's block of the right operand is the whole array. -/
theorem embW2 (t : Fin cfg2.N) (l : Fin 128) (q : Fin 128) :
    ((cfg2.win 1).blk t).view.emb (ix2 l q) = (ix2 l q : S128x128.Idx) := by
  obtain ⟨-, -, e0, e1, -⟩ := idx2 t
  funext a; apply Fin.ext
  match a with
  | ⟨0, _⟩ => show win2_1.index t (0 : Fin 2) * 128 + 1 * l.val = l.val; omega
  | ⟨1, _⟩ => show win2_1.index t (1 : Fin 2) * 128 + 1 * q.val = q.val; omega

/-- Point t's block of the output, at local (p, q), sits at row 5000·t + p, column q of the array. -/
theorem embO2 (t : Fin cfg2.N) (p : Fin 5000) (q : Fin 128) (r : Fin 50000) (hr : r.val = 5000 * t.val + p.val) :
    ((cfg2.win 2).blk t).view.emb (ix2 p q) = (ix2 r q : S50000x128.Idx) := by
  obtain ⟨-, -, -, -, e0, e1⟩ := idx2 t
  funext a; apply Fin.ext
  match a with
  | ⟨0, _⟩ => show win2_2.index t (0 : Fin 2) * 5000 + 1 * p.val = r.val; omega
  | ⟨1, _⟩ => show win2_2.index t (1 : Fin 2) * 128 + 1 * q.val = q.val; omega

/-- What point t writes back is block t of the product of the two arrays as the region finds them: row 5000·t + p of
    the product only needs row 5000·t + p of the left array, which is local row p of the block the point loaded. -/
theorem flushed2_eq (t : Fin cfg2.N) :
    (Gen.dat2 (F := Ideal) V c).flushed 2 t
      = ((cfg2.win 2).blk t).view.read (Elt Ideal)
          (mm (M := 50000) (K := 128) (N := 128) (V c main_v56) (V c main_arg7)) := by
  show (cfg2.win 2).cut (grid2.coords t) ((Gen.dat2 (F := Ideal) V c).after 2 t) = _
  rw [after2_2]
  unfold out2_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  have ht : t.val < 10 := t.isLt
  have hp : p.val < 5000 := p.isLt
  have hr : 5000 * t.val + p.val < 50000 := by omega
  show Gen.k2_pay1 (iblk2 V c 0 t) (iblk2 V c 1 t) (ix2 p q)
      = mm (M := 50000) (K := 128) (N := 128) (V c main_v56) (V c main_arg7) (((cfg2.win 2).blk t).view.emb (ix2 p q))
  rw [embO2 t p q ⟨5000 * t.val + p.val, hr⟩ rfl, mm_apply]
  refine (pay2_apply (iblk2 V c 0 t) (iblk2 V c 1 t) p q).trans ?_
  refine Finset.sum_congr rfl fun l _ => ?_
  congr 1
  · show V c main_v56 (((cfg2.win 0).blk t).view.emb (ix2 p l)) = V c main_v56 (ix2 ⟨5000 * t.val + p.val, hr⟩ l)
    rw [embX2 t p l ⟨5000 * t.val + p.val, hr⟩ rfl]
  · show V c main_arg7 (((cfg2.win 1).blk t).view.emb (ix2 l q)) = V c main_arg7 (ix2 l q)
    rw [embW2 t l q]

/-- An index of the output array is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v57).slice (win2_2.rect t)).set ↔ _
  rw [View.set_slice_whole, Rect.mem_set_unit]
  exact Iff.rfl

/-- The ten blocks of rows tile the output array: row r is in the block of point r / 5000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hq : (i 0).val / 5000 < 10 := by omega
  obtain ⟨t, ht⟩ : ∃ t : Fin cfg2.N, t.val = (i 0).val / 5000 := ⟨⟨(i 0).val / 5000, hq⟩, rfl⟩
  obtain ⟨-, -, -, -, e0, e1⟩ := idx2 t
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- After region 2, its output array is the plain product of its two input arrays as the region found them. -/
theorem final2 : (Gen.dat2 (F := Ideal) V c).arrAt 2 cfg2.N
    = mm (M := 50000) (K := 128) (N := 128) (V c main_v56) (V c main_arg7) :=
  (Gen.dat2 (F := Ideal) V c).arrAt_eq_of_cover 2 (mm (M := 50000) (K := 128) (N := 128) (V c main_v56) (V c main_arg7))
    (fun t _ => flushed2_eq V c t) cover2

/-- The left input array is never written back: it ends as the region found it. -/
theorem kept2_lhs : (Gen.dat2 (F := Ideal) V c).arrAt 0 cfg2.N = (Gen.dat2 (F := Ideal) V c).A 0 :=
  (Gen.dat2 (F := Ideal) V c).arrAt_in 0 rfl _

/-- The right input array is never written back: it ends as the region found it. -/
theorem kept2_rhs : (Gen.dat2 (F := Ideal) V c).arrAt 1 cfg2.N = (Gen.dat2 (F := Ideal) V c).A 1 :=
  (Gen.dat2 (F := Ideal) V c).arrAt_in 1 rfl _

/-- Both input arrays of region 2 end as the region found them. -/
theorem kept2 (w : Fin cfg2.W) (hw : w ≠ 2) :
    (Gen.dat2 (F := Ideal) V c).arrAt w cfg2.N = (Gen.dat2 (F := Ideal) V c).A w :=
  match w, hw with
  | ⟨0, _⟩, _ => kept2_lhs V c
  | ⟨1, _⟩, _ => kept2_rhs V c
  | ⟨2, _⟩, h => absurd rfl h

end Cert.KernelIdeal.RegionValue

end
-- ==== Proof.RegionMatmul.lean ====
/-
  The three tiled matmul regions, each read as one plain product of whole arrays (`final0`, `final1`, `final2`),
  with their input arrays left as found (`kept0`, `kept1`, `kept2`).
-/
import proofs.«125503_j67216238182901_2_alg».proof.Proof.RegionMatmul0
import proofs.«125503_j67216238182901_2_alg».proof.Proof.RegionMatmul1
import proofs.«125503_j67216238182901_2_alg».proof.Proof.RegionMatmul2
-- ==== Proof.KernelStages.lean ====
/-
  The kernel's host lines as a few pure functions of its arguments.

  The program computes, from the edge list `x1` (two rows of 800000 words: sources and destinations), the source
  and destination words of the 850000 rows of the edge list with one self loop per node appended (`src`, `dst`), the
  in-degree with self loops of every node and its inverse square root clamped below at 1 (`dinv`), and the gather
  positions of the sources (`srcIdx`: a negative word wrapped by 50000). A layer takes node features `H`, scales node
  `i` by `dinv i`, gathers the source rows, adds them up per destination, scales node `i` by `dinv i` again and adds
  the bias. Three layers, each after a product with a weight matrix and the first two followed by `max · 0`, then a
  mean over each of the 64 graphs and a two-layer head.
-/
import proofs.«125503_j67216238182901_2_alg».proof.KernelIdeal
import proofs.«125503_j67216238182901_2_alg».proof.Proof.MatSpec

noncomputable section

namespace Cert.KernelIdeal.Stages

open Cert.KernelIdeal Idealize.ShloMosaic Idealize.ShloMosaic.TcCoe Cert.MatSpec

variable [Facts]
open Facts₀ Facts

/-- The source words: row 0 of the edge list, then one self loop per node. -/
def src (x1 : IVec S2x800000 32) : IVec S850000 32 :=
  concatenate S850000 0 [⟨S800000, (shapeCast _ (extractStridedSlice S1x800000 ![0, 0] x1 slices_S2x800000_S1x800000_0_0) shapeCasts_S1x800000_S800000)⟩, ⟨S50000, (iotaInDim S50000 32 0)⟩] concatenates_S800000_S50000_S850000_d0

/-- The destination words: row 1 of the edge list, then one self loop per node. -/
def dst (x1 : IVec S2x800000 32) : IVec S850000 32 :=
  concatenate S850000 0 [⟨S800000, (shapeCast _ (extractStridedSlice S1x800000 ![1, 0] x1 slices_S2x800000_S1x800000_1_0) shapeCasts_S1x800000_S800000)⟩, ⟨S50000, (iotaInDim S50000 32 0)⟩] concatenates_S800000_S50000_S850000_d0

/-- The degree of every node (the number of rows landing on it), clamped below at 1, to the power −1/2. -/
def dinv (x1 : IVec S2x800000 32) : FVec Ideal S50000 .f32 :=
  Host.rsqrt (maximumf (Host.scatterAdd scatter_S50000_S850000x1_S850000_n_0_0_1
      (broadcastInDim S50000 ![] bcast_S_S50000 (constant (F := Ideal) S_ .f32 0x00000000#32))
      (broadcastInDim S850000x1 ![0] bcast_S850000_S850000x1_0 (dst x1))
      (broadcastInDim S850000 ![] bcast_S_S850000 (constant (F := Ideal) S_ .f32 0x3F800000#32)))
    (broadcastInDim S50000 ![] bcast_S_S50000 (constant (F := Ideal) S_ .f32 0x3F800000#32)))

/-- `dinv` as a column. -/
def dinvCol (x1 : IVec S2x800000 32) : FVec Ideal S50000x1 .f32 :=
  broadcastInDim S50000x1 ![0] bcast_S50000_S50000x1_0 (dinv x1)

/-- The zero word and the node count, at every row. -/
def zeros : IVec S850000 32 := broadcastInDim S850000 ![] bcast_S_S850000 (constantI S_ 32 0#32)
def count : IVec S850000 32 := broadcastInDim S850000 ![] bcast_S_S850000 (constantI S_ 32 50000#32)

/-- The sources as gather positions: a negative word wrapped by the node count, as a column. -/
def srcIdx (x1 : IVec S2x800000 32) : IVec S850000x1 32 :=
  broadcastInDim S850000x1 ![0] bcast_S850000_S850000x1_0 (select (cmpi .slt (src x1) zeros) (addi (src x1) count) (src x1))

/-- The zero array a layer's sums start from. -/
def zero2 : FVec Ideal S50000x128 .f32 := broadcastInDim S50000x128 ![] bcast_S_S50000x128 (constant (F := Ideal) S_ .f32 0x00000000#32)

/-- A bias vector at every node. -/
def bias (b : FVec Ideal S128 .f32) : FVec Ideal S50000x128 .f32 :=
  broadcastInDim S50000x128 ![0, 1] bcast_S1x128_S50000x128_0_1 (broadcastInDim S1x128 ![1] bcast_S128_S1x128_1 b)

/-- One layer's aggregation: scale the nodes, gather the sources, add up per destination, scale the nodes, add the
    bias. -/
def layer (H : FVec Ideal S50000x128 .f32) (x1 : IVec S2x800000 32)
    (b : FVec Ideal S128 .f32) : FVec Ideal S50000x128 .f32 :=
  addf (mulf (Host.scatterAdd scatter_S50000x128_S850000x1_S850000x128_1_0_0_1 zero2
      (broadcastInDim S850000x1 ![0] bcast_S850000_S850000x1_0 (dst x1))
      (extf .f32 (Host.gather gather_S50000x128_S850000x1_S850000x128_1_0_n_n_0_1_1128
        (truncf .bf16 (mulf H (broadcastInDim S50000x128 ![0, 1] bcast_S50000x1_S50000x128_0_1 (dinvCol x1))) bitsLt_bf16_f32)
        (srcIdx x1)) bitsLt_bf16_f32))
    (broadcastInDim S50000x128 ![0, 1] bcast_S50000x1_S50000x128_0_1 (dinvCol x1))) (bias b)

/-- `max · 0` at every entry. -/
def relu (H : FVec Ideal S50000x128 .f32) : FVec Ideal S50000x128 .f32 :=
  maximumf H (broadcastInDim S50000x128 ![] bcast_S_S50000x128 (constant (F := Ideal) S_ .f32 0x00000000#32))

/-- The mean of the node features over each graph (the count clamped below at 1) and the two-layer head. -/
def tail (h3 : FVec Ideal S50000x128 .f32) (x2 : IVec S50000 32)
    (x9 : FVec Ideal S128x64 .f32) (x10 : FVec Ideal S64 .f32)
    (x11 : FVec Ideal S64x1 .f32) (x12 : FVec Ideal S1 .f32) :
    FVec Ideal S64x1 .f32 :=
  addf (Host.dotGeneral dot_S64x64_S64x1_S64x1_1_0_0_1_n_n none
      (maximumf (addf (Host.dotGeneral dot_S64x128_S128x64_S64x64_1_0_0_1_n_n none
          (Host.divf (Host.scatterAdd scatter_S64x128_S50000x1_S50000x128_1_0_0_1
              (broadcastInDim S64x128 ![] bcast_S_S64x128 (constant (F := Ideal) S_ .f32 0x00000000#32))
              (broadcastInDim S50000x1 ![0] bcast_S50000_S50000x1_0 x2) h3)
            (broadcastInDim S64x128 ![0, 1] bcast_S64x1_S64x128_0_1 (broadcastInDim S64x1 ![0] bcast_S64_S64x1_0
              (maximumf (Host.scatterAdd scatter_S64_S50000x1_S50000_n_0_0_1
                  (broadcastInDim S64 ![] bcast_S_S64 (constant (F := Ideal) S_ .f32 0x00000000#32))
                  (broadcastInDim S50000x1 ![0] bcast_S50000_S50000x1_0 x2)
                  (broadcastInDim S50000 ![] bcast_S_S50000 (constant (F := Ideal) S_ .f32 0x3F800000#32)))
                (broadcastInDim S64 ![] bcast_S_S64 (constant (F := Ideal) S_ .f32 0x3F800000#32))))))
          x9)
        (broadcastInDim S64x64 ![0, 1] bcast_S1x64_S64x64_0_1 (broadcastInDim S1x64 ![1] bcast_S64_S1x64_1 x10)))
      (broadcastInDim S64x64 ![] bcast_S_S64x64 (constant (F := Ideal) S_ .f32 0x00000000#32)))
      x11)
    (broadcastInDim S64x1 ![0, 1] bcast_S1x1_S64x1_0_1 (broadcastInDim S1x1 ![1] bcast_S1_S1x1_1 x12))

/-- The whole program as a function of its thirteen arguments. -/
def all (x0 : FVec Ideal S50000x128 .f32) (x1 : IVec S2x800000 32)
    (x2 : IVec S50000 32) (x3 : FVec Ideal S128x128 .f32)
    (x4 : FVec Ideal S128 .f32) (x5 : FVec Ideal S128x128 .f32)
    (x6 : FVec Ideal S128 .f32) (x7 : FVec Ideal S128x128 .f32)
    (x8 : FVec Ideal S128 .f32) (x9 : FVec Ideal S128x64 .f32)
    (x10 : FVec Ideal S64 .f32) (x11 : FVec Ideal S64x1 .f32)
    (x12 : FVec Ideal S1 .f32) : FVec Ideal S64x1 .f32 :=
  tail (layer (mm (M := 50000) (K := 128) (N := 128) (relu (layer (mm (M := 50000) (K := 128) (N := 128)
    (relu (layer (mm (M := 50000) (K := 128) (N := 128) x0 x3) x1 x4)) x5) x1 x6)) x7) x1 x8) x2 x9 x10 x11 x12

end Cert.KernelIdeal.Stages

end
-- ==== Proof.KernelValue.lean ====
/-
  What the kernel's @main leaves in the array it returns.

  The run passes through eleven boundaries: stretches of host operations and the three tiled products. A tiled
  product changes the buffer contents only at its output array, which ends at the product of its two input arrays
  (each block is the product of its 5000 rows with the whole matrix, and the ten blocks tile the array); its input
  arrays and every other buffer keep what they held. That is exactly what ONE host operation computing the product
  would leave, so the whole run's contents are those of one straight line of operations, and the returned array holds
  that line's value there: the program's function of the argument arrays.
-/
import proofs.«125503_j67216238182901_2_alg».proof.Proof.Gen.KernelIdeal.Frame
import proofs.«125503_j67216238182901_2_alg».proof.Proof.MatSpec
import proofs.«125503_j67216238182901_2_alg».proof.Proof.LibRegionAsOp
import proofs.«125503_j67216238182901_2_alg».proof.Proof.RegionMatmul
import proofs.«125503_j67216238182901_2_alg».proof.Proof.KernelStages
import Idealize.ShloMosaic.Lib.StableHlo.Run

set_option maxRecDepth 16384

noncomputable section

namespace Cert.KernelIdeal.HostValue

open Cert.KernelIdeal Cert.KernelIdeal.Gen Cert.MatSpec
open Idealize.ShloMosaic Idealize.ShloMosaic.TcCoe Idealize.SL.Sem Idealize.ShloMosaic.StableHlo

variable (m : (ℓ : Loc nD τ sig) → Buf (Elt Ideal) ℓ) (ρ : Dev nD → PrngReg)

/-- Region 0 as one operation: the product of its two input arrays into its output array. -/
def op0 : HloOp τ sig (Elt Ideal) :=
  binary main_arg0 main_arg3 main_v15 ((fun X W => mm (M := 50000) (K := 128) (N := 128) X W) : (⟨S50000x128, .f32⟩ : BufTy).Contents (Elt Ideal) → (⟨S128x128, .f32⟩ : BufTy).Contents (Elt Ideal) → (⟨S50000x128, .f32⟩ : BufTy).Contents (Elt Ideal))
/-- Region 1 as one operation. -/
def op1 : HloOp τ sig (Elt Ideal) :=
  binary main_v35 main_arg5 main_v36 ((fun X W => mm (M := 50000) (K := 128) (N := 128) X W) : (⟨S50000x128, .f32⟩ : BufTy).Contents (Elt Ideal) → (⟨S128x128, .f32⟩ : BufTy).Contents (Elt Ideal) → (⟨S50000x128, .f32⟩ : BufTy).Contents (Elt Ideal))
/-- Region 2 as one operation. -/
def op2 : HloOp τ sig (Elt Ideal) :=
  binary main_v56 main_arg7 main_v57 ((fun X W => mm (M := 50000) (K := 128) (N := 128) X W) : (⟨S50000x128, .f32⟩ : BufTy).Contents (Elt Ideal) → (⟨S128x128, .f32⟩ : BufTy).Contents (Elt Ideal) → (⟨S50000x128, .f32⟩ : BufTy).Contents (Elt Ideal))

/-- What region 0 leaves is what the product, run as a host operation on the entry contents, leaves. -/
theorem W2_eq (c : Dev nD) : W2 (F := Ideal) m ρ c = op0.result (W1 m ρ c) := by
  unfold W2
  refine Cert.LibRegionAsOp.withArrays_eq_of spec0 launch0.win.arr_inj c (W1 m ρ c) _ _ (fun w => ?_) (fun b hb => ?_)
  · match w with
    | ⟨0, _⟩ =>
      exact (HloOp.result_of_not_mem _ _ (by rw [op0, binary_writes, Finset.mem_singleton]; exact devRef_ne_of_ne (show (main_arg0 : Ref sig .tc) ≠ main_v15 from by decide))).trans
        (((dat0 (V1 m ρ) c).arrAt_in 0 rfl _).trans (A_eq0 (V1 m ρ) c 0)).symm
    | ⟨1, _⟩ =>
      exact (HloOp.result_of_not_mem _ _ (by rw [op0, binary_writes, Finset.mem_singleton]; exact devRef_ne_of_ne (show (main_arg3 : Ref sig .tc) ≠ main_v15 from by decide))).trans
        (((dat0 (V1 m ρ) c).arrAt_in 1 rfl _).trans (A_eq0 (V1 m ρ) c 1)).symm
    | ⟨2, _⟩ => exact (binary_result _ _ _ _ _ _ _ _).trans (Cert.KernelIdeal.RegionValue.final0 (V1 m ρ) c).symm
  · exact HloOp.result_of_not_mem _ _ (by rw [op0, binary_writes, Finset.mem_singleton]; exact fun e => hb 2 e.symm)

theorem W5_eq (c : Dev nD) : W5 (F := Ideal) m ρ c = op1.result (W4 m ρ c) := by
  unfold W5
  refine Cert.LibRegionAsOp.withArrays_eq_of spec1 launch1.win.arr_inj c (W4 m ρ c) _ _ (fun w => ?_) (fun b hb => ?_)
  · match w with
    | ⟨0, _⟩ =>
      exact (HloOp.result_of_not_mem _ _ (by rw [op1, binary_writes, Finset.mem_singleton]; exact devRef_ne_of_ne (show (main_v35 : Ref sig .tc) ≠ main_v36 from by decide))).trans
        (((dat1 (V4 m ρ) c).arrAt_in 0 rfl _).trans (A_eq1 (V4 m ρ) c 0)).symm
    | ⟨1, _⟩ =>
      exact (HloOp.result_of_not_mem _ _ (by rw [op1, binary_writes, Finset.mem_singleton]; exact devRef_ne_of_ne (show (main_arg5 : Ref sig .tc) ≠ main_v36 from by decide))).trans
        (((dat1 (V4 m ρ) c).arrAt_in 1 rfl _).trans (A_eq1 (V4 m ρ) c 1)).symm
    | ⟨2, _⟩ => exact (binary_result _ _ _ _ _ _ _ _).trans (Cert.KernelIdeal.RegionValue.final1 (V4 m ρ) c).symm
  · exact HloOp.result_of_not_mem _ _ (by rw [op1, binary_writes, Finset.mem_singleton]; exact fun e => hb 2 e.symm)

theorem W8_eq (c : Dev nD) : W8 (F := Ideal) m ρ c = op2.result (W7 m ρ c) := by
  unfold W8
  refine Cert.LibRegionAsOp.withArrays_eq_of spec2 launch2.win.arr_inj c (W7 m ρ c) _ _ (fun w => ?_) (fun b hb => ?_)
  · match w with
    | ⟨0, _⟩ =>
      exact (HloOp.result_of_not_mem _ _ (by rw [op2, binary_writes, Finset.mem_singleton]; exact devRef_ne_of_ne (show (main_v56 : Ref sig .tc) ≠ main_v57 from by decide))).trans
        (((dat2 (V7 m ρ) c).arrAt_in 0 rfl _).trans (A_eq2 (V7 m ρ) c 0)).symm
    | ⟨1, _⟩ =>
      exact (HloOp.result_of_not_mem _ _ (by rw [op2, binary_writes, Finset.mem_singleton]; exact devRef_ne_of_ne (show (main_arg7 : Ref sig .tc) ≠ main_v57 from by decide))).trans
        (((dat2 (V7 m ρ) c).arrAt_in 1 rfl _).trans (A_eq2 (V7 m ρ) c 1)).symm
    | ⟨2, _⟩ => exact (binary_result _ _ _ _ _ _ _ _).trans (Cert.KernelIdeal.RegionValue.final2 (V7 m ρ) c).symm
  · exact HloOp.result_of_not_mem _ _ (by rw [op2, binary_writes, Finset.mem_singleton]; exact fun e => hb 2 e.symm)

/-! ## The `max · 0` calls as plain operations -/

/-- The three operations of the `max · 0` call 1_1, with the plain builders. -/
theorem hostOps1_1_plain : (hostOps1_1 : List (HloOp τ sig (Elt Ideal))) =
    [ nullary main_call0_cst (constant (F := Ideal) S_ .f32 0x00000000#32),
      unary main_call0_cst main_call0_v0 (broadcastInDim S50000x128 ![] bcast_S_S50000x128 : FVec Ideal S_ .f32 → FVec Ideal S50000x128 .f32),
      binary main_v34 main_call0_v0 main_v35 (maximumf : FVec Ideal S50000x128 .f32 → FVec Ideal S50000x128 .f32 → FVec Ideal S50000x128 .f32) ] := rfl

/-- The three operations of the `max · 0` call 2_1, with the plain builders. -/
theorem hostOps2_1_plain : (hostOps2_1 : List (HloOp τ sig (Elt Ideal))) =
    [ nullary main_call1_cst (constant (F := Ideal) S_ .f32 0x00000000#32),
      unary main_call1_cst main_call1_v0 (broadcastInDim S50000x128 ![] bcast_S_S50000x128 : FVec Ideal S_ .f32 → FVec Ideal S50000x128 .f32),
      binary main_v55 main_call1_v0 main_v56 (maximumf : FVec Ideal S50000x128 .f32 → FVec Ideal S50000x128 .f32 → FVec Ideal S50000x128 .f32) ] := rfl

/-- The three operations of the `max · 0` call 3_1, with the plain builders. -/
theorem hostOps3_1_plain : (hostOps3_1 : List (HloOp τ sig (Elt Ideal))) =
    [ nullary main_call2_cst (constant (F := Ideal) S_ .f32 0x00000000#32),
      unary main_call2_cst main_call2_v0 (broadcastInDim S64x64 ![] bcast_S_S64x64 : FVec Ideal S_ .f32 → FVec Ideal S64x64 .f32),
      binary main_v92 main_call2_v0 main_v93 (maximumf : FVec Ideal S64x64 .f32 → FVec Ideal S64x64 .f32 → FVec Ideal S64x64 .f32) ] := rfl
/-! ## The first stretch: the edge rows, the scales, and the arguments as launched -/

theorem stretch0_src (c : Dev nD) :
    after hostOps0 (W0 (F := Ideal) m ρ c) (Proc.devRef .tc main_v5) = Cert.KernelIdeal.Stages.src (m ((c.tc : Thread nD τ).loc main_arg1)) := by
  simp only [hostOps0]; after_results_simp; rfl

theorem stretch0_dst (c : Dev nD) :
    after hostOps0 (W0 (F := Ideal) m ρ c) (Proc.devRef .tc main_v6) = Cert.KernelIdeal.Stages.dst (m ((c.tc : Thread nD τ).loc main_arg1)) := by
  simp only [hostOps0]; after_results_simp; rfl

theorem stretch0_dinvCol (c : Dev nD) :
    after hostOps0 (W0 (F := Ideal) m ρ c) (Proc.devRef .tc main_v14) = Cert.KernelIdeal.Stages.dinvCol (m ((c.tc : Thread nD τ).loc main_arg1)) := by
  simp only [hostOps0]; after_results_simp; rfl

theorem stretch0_arg0 (c : Dev nD) :
    after hostOps0 (W0 (F := Ideal) m ρ c) (Proc.devRef .tc main_arg0) = m ((c.tc : Thread nD τ).loc main_arg0) := by
  simp only [hostOps0]; after_results_simp

theorem stretch0_arg2 (c : Dev nD) :
    after hostOps0 (W0 (F := Ideal) m ρ c) (Proc.devRef .tc main_arg2) = m ((c.tc : Thread nD τ).loc main_arg2) := by
  simp only [hostOps0]; after_results_simp

theorem stretch0_arg3 (c : Dev nD) :
    after hostOps0 (W0 (F := Ideal) m ρ c) (Proc.devRef .tc main_arg3) = m ((c.tc : Thread nD τ).loc main_arg3) := by
  simp only [hostOps0]; after_results_simp

theorem stretch0_arg4 (c : Dev nD) :
    after hostOps0 (W0 (F := Ideal) m ρ c) (Proc.devRef .tc main_arg4) = m ((c.tc : Thread nD τ).loc main_arg4) := by
  simp only [hostOps0]; after_results_simp

theorem stretch0_arg5 (c : Dev nD) :
    after hostOps0 (W0 (F := Ideal) m ρ c) (Proc.devRef .tc main_arg5) = m ((c.tc : Thread nD τ).loc main_arg5) := by
  simp only [hostOps0]; after_results_simp

theorem stretch0_arg6 (c : Dev nD) :
    after hostOps0 (W0 (F := Ideal) m ρ c) (Proc.devRef .tc main_arg6) = m ((c.tc : Thread nD τ).loc main_arg6) := by
  simp only [hostOps0]; after_results_simp

theorem stretch0_arg7 (c : Dev nD) :
    after hostOps0 (W0 (F := Ideal) m ρ c) (Proc.devRef .tc main_arg7) = m ((c.tc : Thread nD τ).loc main_arg7) := by
  simp only [hostOps0]; after_results_simp

theorem stretch0_arg8 (c : Dev nD) :
    after hostOps0 (W0 (F := Ideal) m ρ c) (Proc.devRef .tc main_arg8) = m ((c.tc : Thread nD τ).loc main_arg8) := by
  simp only [hostOps0]; after_results_simp

theorem stretch0_arg9 (c : Dev nD) :
    after hostOps0 (W0 (F := Ideal) m ρ c) (Proc.devRef .tc main_arg9) = m ((c.tc : Thread nD τ).loc main_arg9) := by
  simp only [hostOps0]; after_results_simp

theorem stretch0_arg10 (c : Dev nD) :
    after hostOps0 (W0 (F := Ideal) m ρ c) (Proc.devRef .tc main_arg10) = m ((c.tc : Thread nD τ).loc main_arg10) := by
  simp only [hostOps0]; after_results_simp

theorem stretch0_arg11 (c : Dev nD) :
    after hostOps0 (W0 (F := Ideal) m ρ c) (Proc.devRef .tc main_arg11) = m ((c.tc : Thread nD τ).loc main_arg11) := by
  simp only [hostOps0]; after_results_simp

theorem stretch0_arg12 (c : Dev nD) :
    after hostOps0 (W0 (F := Ideal) m ρ c) (Proc.devRef .tc main_arg12) = m ((c.tc : Thread nD τ).loc main_arg12) := by
  simp only [hostOps0]; after_results_simp

set_option maxHeartbeats 60000000 in
/-- THE KERNEL'S RESULT: the array @main returns holds, after the run, the program's function of the argument arrays as
    launched. Each region is the product of its input arrays run as one operation; the stretches of host operations
    between them are then one line of operations, read at the result buffer. -/
theorem result_eq (c : Dev nD) :
    W11 (F := Ideal) m ρ c (Proc.devRef .tc main_v97) = Cert.KernelIdeal.Stages.all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show after hostOps3_2 (after hostOps3_1 (after hostOps3 (W8 m ρ c))) (Proc.devRef .tc main_v97) = _
  rw [hostOps3_1_plain]
  rw [W8_eq]
  show after hostOps3_2 (after _ (after hostOps3 (op2.result (after hostOps2_1 (after hostOps2 (W5 m ρ c)))))) (Proc.devRef .tc main_v97) = _
  rw [hostOps2_1_plain]
  rw [W5_eq]
  show after hostOps3_2 (after _ (after hostOps3 (op2.result (after _ (after hostOps2 (op1.result (after hostOps1_1 (after hostOps1 (W2 m ρ c)))))))))
    (Proc.devRef .tc main_v97) = _
  rw [hostOps1_1_plain]
  rw [W2_eq]
  show after hostOps3_2 (after _ (after hostOps3 (op2.result (after _ (after hostOps2 (op1.result (after _ (after hostOps1
    (op0.result (after hostOps0 (W0 m ρ c)))))))))))
    (Proc.devRef .tc main_v97) = _
  have h5 := stretch0_src m ρ c
  have h6 := stretch0_dst m ρ c
  have h14 := stretch0_dinvCol m ρ c
  have a0 := stretch0_arg0 m ρ c
  have a2 := stretch0_arg2 m ρ c
  have a3 := stretch0_arg3 m ρ c
  have a4 := stretch0_arg4 m ρ c
  have a5 := stretch0_arg5 m ρ c
  have a6 := stretch0_arg6 m ρ c
  have a7 := stretch0_arg7 m ρ c
  have a8 := stretch0_arg8 m ρ c
  have a9 := stretch0_arg9 m ρ c
  have a10 := stretch0_arg10 m ρ c
  have a11 := stretch0_arg11 m ρ c
  have a12 := stretch0_arg12 m ρ c
  generalize after hostOps0 (W0 m ρ c) = Wa at h5 h6 h14 a0 a2 a3 a4 a5 a6 a7 a8 a9 a10 a11 a12 ⊢
  simp only [hostOps1, hostOps2, hostOps3, hostOps3_2, op0, op1, op2]
  after_results_simp
  rw [h5, h6, h14, a0, a2, a3, a4, a5, a6, a7, a8, a9, a10, a11, a12]
  rfl

end Cert.KernelIdeal.HostValue

end
-- ==== Proof.LibSegPool.lean ====
/-
  The host's float scatter-add that sums the rows of an [N, C] array into the rows of an [S, C] array named by an
  [N, 1] array of row numbers (a segment sum), read at an index at the ideal instance, and the fact that four such
  sums laid side by side are the sum of the four arrays laid side by side.
-/
import Idealize.ShloMosaic.Lib.ValueIdx
import Idealize.ShloMosaic.PureOps.Ideal
import Idealize.ShloMosaic.Lib.Pipeline.Value

noncomputable section

open scoped BigOperators

namespace Cert.LibSegPool

open Idealize.ShloMosaic Idealize.ShloMosaic.ValueIdx

/-- The dimension numbers of a segment sum: operand `[S, C]`, scatter indices `[N, 1]`, updates `[N, C]`; the
    updates' axis 1 is the window axis, the operand's axis 0 is inserted and is the one the index names, the index
    vector lies on axis 1 of the scatter indices. Their conditions `wf` are decided on literal shapes. -/
abbrev poolDims (S N C : ℕ) (wf : ScatterDims.WF ⟨2, ![S, C]⟩ ⟨2, ![N, 1]⟩ ⟨2, ![N, C]⟩ [1] [0] [0] 1) :
    ScatterDims ⟨2, ![S, C]⟩ ⟨2, ![N, 1]⟩ ⟨2, ![N, C]⟩ where
  updateWindowDims := [1]
  insertedWindowDims := [0]
  scatterDimsToOperandDims := [0]
  indexVectorDim := 1
  wf := wf

section
variable {S N C w : ℕ} (wf : ScatterDims.WF ⟨2, ![S, C]⟩ ⟨2, ![N, 1]⟩ ⟨2, ![N, C]⟩ [1] [0] [0] 1)

/-- On the operand's row axis an update's window starts at its row number `idx[n, 0]`, read as a signed integer. -/
theorem start0 (idx : IVec ⟨2, ![N, 1]⟩ w) (n : Fin N) (g : Fin C) :
    (poolDims S N C wf).start (ix2 n g) idx 0 = (idx (ix2 n (0 : Fin 1))).toInt := by
  unfold ScatterDims.start
  rw [dif_pos (show (0 : Fin 2) ∈ (poolDims S N C wf).scatterDimsToOperandDims from List.mem_singleton.mpr rfl)]
  congr 2
  funext b
  refine Fin.ext ?_
  match b with
  | ⟨0, _⟩ => rfl
  | ⟨1, _⟩ => rfl

/-- On the operand's column axis the window starts at `0`: the index names the row axis only. -/
theorem start1 (idx : IVec ⟨2, ![N, 1]⟩ w) (n : Fin N) (g : Fin C) :
    (poolDims S N C wf).start (ix2 n g) idx 1 = 0 := by
  unfold ScatterDims.start
  rw [dif_neg (show ¬ (1 : Fin 2) ∈ (poolDims S N C wf).scatterDimsToOperandDims from
    (show (1 : Fin 2) ∉ [(0 : Fin 2)] by decide))]

/-- The row axis is inserted: the window coordinate there is `0`. -/
theorem window0 (n : Fin N) (g : Fin C) : (poolDims S N C wf).window (ix2 n g) 0 = 0 := by
  unfold ScatterDims.window
  rw [dif_neg (show ¬ (0 : Fin 2) ∈ (poolDims S N C wf).sKept from
    (show (0 : Fin 2) ∉ (List.finRange 2).filter (fun a => a ∉ [(0 : Fin 2)]) by decide))]

/-- On the column axis the window coordinate is the update's column. -/
theorem window1 (n : Fin N) (g : Fin C) : (poolDims S N C wf).window (ix2 n g) 1 = g.val := by
  unfold ScatterDims.window
  rw [dif_pos (show (1 : Fin 2) ∈ (poolDims S N C wf).sKept from
    (show (1 : Fin 2) ∈ (List.finRange 2).filter (fun a => a ∉ [(0 : Fin 2)]) by decide))]
  rfl

/-- WHERE AN UPDATE LANDS: update element `(n, g)` lands on operand element `(s, f)` exactly when the row number
    `idx[n, 0]`, read as a signed integer and not clamped, is `s`, and the column is the same, `g = f`. A row number
    outside `[0, S)` lands nowhere: the update is dropped. -/
theorem resultIdx_pool (idx : IVec ⟨2, ![N, 1]⟩ w) (n : Fin N) (g : Fin C) (s : Fin S) (f : Fin C) :
    (poolDims S N C wf).resultIdx? (ix2 n g) idx = some (ix2 s f) ↔
      ((idx (ix2 n (0 : Fin 1))).toInt = (s.val : ℤ) ∧ g = f) := by
  have e0 : (poolDims S N C wf).start (ix2 n g) idx 0 + ((poolDims S N C wf).window (ix2 n g) 0 : ℕ)
      = (idx (ix2 n (0 : Fin 1))).toInt := by
    rw [start0, window0]; simp
  have e1 : (poolDims S N C wf).start (ix2 n g) idx 1 + ((poolDims S N C wf).window (ix2 n g) 1 : ℕ) = (g.val : ℤ) := by
    rw [start1, window1]; simp
  unfold ScatterDims.resultIdx?
  constructor
  · intro h
    split at h
    · next hall =>
      have h' := Option.some.inj h
      have h0 : ((poolDims S N C wf).start (ix2 n g) idx 0 + ((poolDims S N C wf).window (ix2 n g) 0 : ℕ)).toNat = s.val :=
        congrArg (fun i => (i 0).val) h'
      have h1 : ((poolDims S N C wf).start (ix2 n g) idx 1 + ((poolDims S N C wf).window (ix2 n g) 1 : ℕ)).toNat = f.val :=
        congrArg (fun i => (i 1).val) h'
      have p0 := (hall 0).1
      rw [e0] at h0 p0
      rw [e1] at h1
      refine ⟨by omega, Fin.ext (by omega)⟩
    · exact absurd h (by simp)
  · rintro ⟨hs, rfl⟩
    have hall : ∀ a : Fin 2, 0 ≤ (poolDims S N C wf).start (ix2 n g) idx a + ((poolDims S N C wf).window (ix2 n g) a : ℕ) ∧
        (poolDims S N C wf).start (ix2 n g) idx a + ((poolDims S N C wf).window (ix2 n g) a : ℕ)
          < ((⟨2, ![S, C]⟩ : Shape).size a : ℕ) := by
      intro a
      match a with
      | ⟨0, _⟩ =>
        have := s.isLt
        show 0 ≤ (poolDims S N C wf).start (ix2 n g) idx 0 + ((poolDims S N C wf).window (ix2 n g) 0 : ℕ) ∧
          (poolDims S N C wf).start (ix2 n g) idx 0 + ((poolDims S N C wf).window (ix2 n g) 0 : ℕ) < (S : ℤ)
        rw [e0, hs]; omega
      | ⟨1, _⟩ =>
        have := g.isLt
        show 0 ≤ (poolDims S N C wf).start (ix2 n g) idx 1 + ((poolDims S N C wf).window (ix2 n g) 1 : ℕ) ∧
          (poolDims S N C wf).start (ix2 n g) idx 1 + ((poolDims S N C wf).window (ix2 n g) 1 : ℕ) < (C : ℤ)
        rw [e1]; omega
    rw [dif_pos hall]
    congr 1
    funext a
    refine Fin.ext ?_
    match a with
    | ⟨0, _⟩ =>
      show ((poolDims S N C wf).start (ix2 n g) idx 0 + ((poolDims S N C wf).window (ix2 n g) 0 : ℕ)).toNat = s.val
      rw [e0, hs]; omega
    | ⟨1, _⟩ =>
      show ((poolDims S N C wf).start (ix2 n g) idx 1 + ((poolDims S N C wf).window (ix2 n g) 1 : ℕ)).toNat = g.val
      rw [e1]; omega

/-- THE SEGMENT SUM READ AT `(s, f)`: the operand there plus the sum, over the update rows `n` whose row number
    `idx[n, 0]` (signed, not clamped) is `s`, of the update's element in column `f`. -/
theorem scatterAdd_pool_apply (x : (⟨2, ![S, C]⟩ : Shape).Idx → EReal) (idx : IVec ⟨2, ![N, 1]⟩ w)
    (upd : (⟨2, ![N, C]⟩ : Shape).Idx → EReal) (s : Fin S) (f : Fin C) :
    Ideal.hostScatterAdd (poolDims S N C wf) x idx upd (ix2 s f)
      = x (ix2 s f) + ∑ n : Fin N, (if (idx (ix2 n (0 : Fin 1))).toInt = (s.val : ℤ) then upd (ix2 n f) else 0) := by
  unfold Ideal.hostScatterAdd
  congr 1
  rw [Finset.sum_filter, sum_idx2]
  refine Finset.sum_congr rfl (fun n _ => ?_)
  simp only [resultIdx_pool]
  by_cases h : (idx (ix2 n (0 : Fin 1))).toInt = (s.val : ℤ)
  · simp [h]
  · simp [h]

end

/-- FOUR `[R, C]` PIECES LAID SIDE BY SIDE, READ AT `(r, g)`: piece `g / C` at `(r, g % C)`. -/
theorem concat4_apply {α : Type} {R C C4 : ℕ}
    (hc : Shape.Concatenates [⟨2, ![R, C]⟩, ⟨2, ![R, C]⟩, ⟨2, ![R, C]⟩, ⟨2, ![R, C]⟩] ⟨2, ![R, C4]⟩ 1)
    (G : Fin 4 → (⟨2, ![R, C]⟩ : Shape).Idx → α) (r : Fin R) (g : Fin C4) (k : Fin 4) (f : Fin C)
    (hk : g.val / C = k.val) (hf : g.val % C = f.val) :
    concatenate ⟨2, ![R, C4]⟩ 1 [⟨⟨2, ![R, C]⟩, G 0⟩, ⟨⟨2, ![R, C]⟩, G 1⟩, ⟨⟨2, ![R, C]⟩, G 2⟩, ⟨⟨2, ![R, C]⟩, G 3⟩] hc (ix2 r g)
      = G k (ix2 r f) := by
  refine concatenate_ofFn_apply (t := ⟨2, ![R, C4]⟩) (s₁ := ⟨2, ![R, C]⟩) (1 : Fin 2) G hc rfl C rfl (ix2 r g) k hk (ix2 r f) hf.symm ?_
  intro b hb
  match b with
  | ⟨0, _⟩ => rfl
  | ⟨1, _⟩ => exact absurd rfl hb

/-- SEGMENT SUMS OF FOUR ARRAYS, SIDE BY SIDE: summing each of four `[N, C]` arrays into `[S, C]` by the same row
    numbers (each sum started from an array `zK`) and laying the four results side by side is summing the four arrays
    laid side by side into `[S, 4C]` (started from `zR`), when the two starting arrays hold one common value. Element
    `(s, g)` of either side is that value plus the sum, over the rows `n` whose number is `s`, of array `g / C` at
    `(n, g % C)`. -/
theorem pool_concat4 {S N C C4 w : ℕ} (hC4 : C4 = 4 * C)
    (wfK : ScatterDims.WF ⟨2, ![S, C]⟩ ⟨2, ![N, 1]⟩ ⟨2, ![N, C]⟩ [1] [0] [0] 1)
    (wfR : ScatterDims.WF ⟨2, ![S, C4]⟩ ⟨2, ![N, 1]⟩ ⟨2, ![N, C4]⟩ [1] [0] [0] 1)
    (hcK : Shape.Concatenates [⟨2, ![S, C]⟩, ⟨2, ![S, C]⟩, ⟨2, ![S, C]⟩, ⟨2, ![S, C]⟩] ⟨2, ![S, C4]⟩ 1)
    (hcR : Shape.Concatenates [⟨2, ![N, C]⟩, ⟨2, ![N, C]⟩, ⟨2, ![N, C]⟩, ⟨2, ![N, C]⟩] ⟨2, ![N, C4]⟩ 1)
    (zK : (⟨2, ![S, C]⟩ : Shape).Idx → EReal) (zR : (⟨2, ![S, C4]⟩ : Shape).Idx → EReal)
    (hz : ∀ i j, zR i = zK j)
    (idx : IVec ⟨2, ![N, 1]⟩ w) (h0 h1 h2 h3 : (⟨2, ![N, C]⟩ : Shape).Idx → EReal) :
    concatenate ⟨2, ![S, C4]⟩ 1
        [⟨⟨2, ![S, C]⟩, Ideal.hostScatterAdd (poolDims S N C wfK) zK idx h0⟩,
         ⟨⟨2, ![S, C]⟩, Ideal.hostScatterAdd (poolDims S N C wfK) zK idx h1⟩,
         ⟨⟨2, ![S, C]⟩, Ideal.hostScatterAdd (poolDims S N C wfK) zK idx h2⟩,
         ⟨⟨2, ![S, C]⟩, Ideal.hostScatterAdd (poolDims S N C wfK) zK idx h3⟩] hcK
      = Ideal.hostScatterAdd (poolDims S N C4 wfR) zR idx
          (concatenate ⟨2, ![N, C4]⟩ 1
            [⟨⟨2, ![N, C]⟩, h0⟩, ⟨⟨2, ![N, C]⟩, h1⟩, ⟨⟨2, ![N, C]⟩, h2⟩, ⟨⟨2, ![N, C]⟩, h3⟩] hcR) := by
  funext j
  obtain ⟨s, g, rfl⟩ : ∃ s g, j = ix2 s g := ⟨j 0, j 1, eq_ix2 j⟩
  -- the piece `k = g / C` and the column `f = g % C` inside it
  have hg : g.val < 4 * C := hC4 ▸ g.isLt
  have hC : 0 < C := by omega
  let k : Fin 4 := ⟨g.val / C, (Nat.div_lt_iff_lt_mul hC).mpr hg⟩
  let f : Fin C := ⟨g.val % C, Nat.mod_lt _ hC⟩
  let H : Fin 4 → (⟨2, ![N, C]⟩ : Shape).Idx → EReal := fun q =>
    match q with | ⟨0, _⟩ => h0 | ⟨1, _⟩ => h1 | ⟨2, _⟩ => h2 | ⟨3, _⟩ => h3
  have hL := concat4_apply hcK (fun q => Ideal.hostScatterAdd (poolDims S N C wfK) zK idx (H q)) s g k f rfl rfl
  have hR : ∀ n : Fin N, concatenate ⟨2, ![N, C4]⟩ 1
      [⟨⟨2, ![N, C]⟩, h0⟩, ⟨⟨2, ![N, C]⟩, h1⟩, ⟨⟨2, ![N, C]⟩, h2⟩, ⟨⟨2, ![N, C]⟩, h3⟩] hcR (ix2 n g) = H k (ix2 n f) :=
    fun n => concat4_apply hcR H n g k f rfl rfl
  refine hL.trans ?_
  rw [scatterAdd_pool_apply, scatterAdd_pool_apply, hz (ix2 s g) (ix2 s f)]
  congr 1
  refine Finset.sum_congr rfl (fun n _ => ?_)
  rw [hR n]

end Cert.LibSegPool

end
-- ==== Proof.LibGatherRows.lean ====
/-
  A gather of whole rows of a matrix, read at an index.

  `x[idx, :]` for a matrix `x : [N, C]` and an integer vector `idx` of `R` row numbers lowers to a gather whose
  start indices are `idx` viewed as `[R, 1]`, with the row axis collapsed, the column axis an offset axis of full
  width, and the index vector on the last axis.  Entry (o, h) of the result is `x` at row `idx[o, 0]` — read as a
  signed integer and clamped into [0, N − 1], as every gather start index is — and column `h`.
-/
import Idealize.ShloMosaic.Lib.ValueIdx

namespace Cert.LibGatherRows

open Idealize.ShloMosaic Idealize.ShloMosaic.ValueIdx

variable {α : Type}

/-- The dimension numbers of a whole-row gather for an operand `[N, C]`, start indices `[R, 1]` and a result `[R, C]`;
    their conditions `wf` are decided on a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(o, h)`: the operand at row `idx[o, 0]` (signed, clamped into `[0, N − 1]`), column `h`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (o : Fin R) (h : Fin C) :
    Host.gather (rowsDims N C R wf) x idx (ix2 o h)
      = x (ix2 ⟨min (idx (ix2 o (0 : Fin 1))).toInt.toNat (N - 1), by omega⟩ h) := by
  unfold Host.gather
  refine congrArg x (funext fun a => Fin.ext ?_)
  match a with
  | ⟨0, _⟩ =>
    show (rowsDims N C R wf).start (ix2 o h) idx 0 + (rowsDims N C R wf).batchCoord (ix2 o h) 0
        + (rowsDims N C R wf).offCoord (ix2 o h) 0 = _
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 o h) ⟨List.idxOf (0 : Fin 2) (rowsDims N C R wf).startIndexMap,
        List.idxOf_lt_length_iff.2 (List.mem_singleton.mpr rfl)⟩ = ix2 o (0 : Fin 1) := by
      funext b; refine Fin.ext ?_
      match b with
      | ⟨0, _⟩ => rfl
      | ⟨1, _⟩ => rfl
    rw [hsi]
    rfl
  | ⟨1, _⟩ =>
    show (rowsDims N C R wf).start (ix2 o h) idx 1 + (rowsDims N C R wf).batchCoord (ix2 o h) 1
        + (rowsDims N C R wf).offCoord (ix2 o h) 1 = h.val
    rw [GatherDims.batchCoord_eq_zero _ _ _ List.not_mem_nil]
    have hs : (rowsDims N C R wf).start (ix2 o h) idx 1 = 0 := by
      unfold GatherDims.start
      rw [dif_neg (show ¬ (1 : Fin 2) ∈ ([0] : List (Fin 2)) from by decide)]
    rw [hs]
    have ho : (rowsDims N C R wf).offCoord (ix2 o h) 1 = h.val := by
      unfold GatherDims.offCoord
      rw [dif_pos ((GatherDims.mem_sKept (rowsDims N C R wf) 1).mpr
        ⟨show ¬ (1 : Fin 2) ∈ ([0] : List (Fin 2)) from by decide, List.not_mem_nil⟩)]
      rfl
    rw [ho]
    omega

end Cert.LibGatherRows
-- ==== Proof.LibGraphOps.lean ====
/-
  Host operations of a graph computation read at an index: the float scatter-add of a VECTOR of updates into a vector
  named by an [N, 1] array of positions (a count or a segment sum of scalars), the gather of single elements of a vector
  at an [R, 1] array of positions, a vector laid out as an [n, 1] column, the wrap of a negative position, and the
  signed value of a counter word.
-/
import Idealize.ShloMosaic.Lib.ValueIdx
import Idealize.ShloMosaic.PureOps.Ideal
import Idealize.ShloMosaic.Lib.Pipeline.Value

noncomputable section

open scoped BigOperators

namespace Cert.LibGraphOps

open Idealize.ShloMosaic Idealize.ShloMosaic.ValueIdx

/-- The dimension numbers of a scalar segment sum: operand `[S]`, scatter indices `[N, 1]`, updates `[N]`; no window
    axis, the operand's one axis is inserted and is the one the index names, the index vector lies on axis 1. -/
abbrev vecScatterDims (S N : ℕ) (wf : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := wf

section
variable {S N w : ℕ} (wf : ScatterDims.WF ⟨1, ![S]⟩ ⟨2, ![N, 1]⟩ ⟨1, ![N]⟩ [] [0] [0] 1)

/-- A rank-1 index set is its coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- On the operand's one axis an update's window starts at its position `idx[n, 0]`, read as a signed integer. -/
theorem vstart0 (idx : IVec ⟨2, ![N, 1]⟩ w) (n : Fin N) :
    (vecScatterDims S N wf).start (ix1 n) idx 0 = (idx (ix2 n (0 : Fin 1))).toInt := by
  unfold ScatterDims.start
  rw [dif_pos (show (0 : Fin 1) ∈ (vecScatterDims S N wf).scatterDimsToOperandDims from List.mem_singleton.mpr rfl)]
  congr 2
  funext b
  refine Fin.ext ?_
  match b with
  | ⟨0, _⟩ => rfl
  | ⟨1, _⟩ => rfl

/-- The operand's one axis is inserted: the window coordinate there is `0`. -/
theorem vwindow0 (n : Fin N) : (vecScatterDims S N wf).window (ix1 n) 0 = 0 := by
  unfold ScatterDims.window
  rw [dif_neg (show ¬ (0 : Fin 1) ∈ (vecScatterDims S N wf).sKept from
    (show (0 : Fin 1) ∉ (List.finRange 1).filter (fun a => a ∉ [(0 : Fin 1)]) by decide))]

/-- WHERE AN UPDATE LANDS: update `n` lands on operand element `s` exactly when the position `idx[n, 0]`, read as a
    signed integer and not clamped, is `s`. A position outside `[0, S)` lands nowhere: the update is dropped. -/
theorem resultIdx_vec (idx : IVec ⟨2, ![N, 1]⟩ w) (n : Fin N) (s : Fin S) :
    (vecScatterDims S N wf).resultIdx? (ix1 n) idx = some (ix1 s) ↔
      (idx (ix2 n (0 : Fin 1))).toInt = (s.val : ℤ) := by
  have e0 : (vecScatterDims S N wf).start (ix1 n) idx 0 + ((vecScatterDims S N wf).window (ix1 n) 0 : ℕ)
      = (idx (ix2 n (0 : Fin 1))).toInt := by
    rw [vstart0, vwindow0]; simp
  unfold ScatterDims.resultIdx?
  constructor
  · intro h
    split at h
    · next hall =>
      have h' := Option.some.inj h
      have h0 : ((vecScatterDims S N wf).start (ix1 n) idx 0 + ((vecScatterDims S N wf).window (ix1 n) 0 : ℕ)).toNat = s.val :=
        congrArg (fun i => (i 0).val) h'
      have p0 := (hall 0).1
      rw [e0] at h0 p0
      omega
    · exact absurd h (by simp)
  · intro hs
    have hall : ∀ a : Fin 1, 0 ≤ (vecScatterDims S N wf).start (ix1 n) idx a + ((vecScatterDims S N wf).window (ix1 n) a : ℕ) ∧
        (vecScatterDims S N wf).start (ix1 n) idx a + ((vecScatterDims S N wf).window (ix1 n) a : ℕ)
          < ((⟨1, ![S]⟩ : Shape).size a : ℕ) := by
      intro a
      match a with
      | ⟨0, _⟩ =>
        have := s.isLt
        show 0 ≤ (vecScatterDims S N wf).start (ix1 n) idx 0 + ((vecScatterDims S N wf).window (ix1 n) 0 : ℕ) ∧
          (vecScatterDims S N wf).start (ix1 n) idx 0 + ((vecScatterDims S N wf).window (ix1 n) 0 : ℕ) < (S : ℤ)
        rw [e0, hs]; omega
    rw [dif_pos hall]
    congr 1
    funext a
    refine Fin.ext ?_
    match a with
    | ⟨0, _⟩ =>
      show ((vecScatterDims S N wf).start (ix1 n) idx 0 + ((vecScatterDims S N wf).window (ix1 n) 0 : ℕ)).toNat = s.val
      rw [e0, hs]; omega

end

/-- THE SCALAR SEGMENT SUM READ AT `s`: the operand there plus the sum, over the updates `n` whose position
    `idx[n, 0]` (signed, not clamped) is `s`, of the update. -/
theorem scatterAdd_vec_apply {S N w : ℕ} (wf : ScatterDims.WF ⟨1, ![S]⟩ ⟨2, ![N, 1]⟩ ⟨1, ![N]⟩ [] [0] [0] 1)
    (x : (⟨1, ![S]⟩ : Shape).Idx → EReal) (idx : IVec ⟨2, ![N, 1]⟩ w)
    (upd : (⟨1, ![N]⟩ : Shape).Idx → EReal) (s : Fin S) :
    Ideal.hostScatterAdd (vecScatterDims S N wf) x idx upd (ix1 s)
      = x (ix1 s) + ∑ n : Fin N, (if (idx (ix2 n (0 : Fin 1))).toInt = (s.val : ℤ) then upd (ix1 n) else 0) := by
  unfold Ideal.hostScatterAdd
  congr 1
  rw [Finset.sum_filter, sum_idx1]
  refine Finset.sum_congr rfl (fun n _ => ?_)
  simp only [resultIdx_vec]

/-- The dimension numbers of an element gather: operand `[N]`, start indices `[R, 1]`, result `[R]`. -/
abbrev vecGatherDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `o`: the operand at position `idx[o, 0]` (signed, clamped into `[0, N − 1]`). -/
theorem gather_vec_apply {α : Type} {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (o : Fin R) :
    Host.gather (vecGatherDims N R wf) x idx (ix1 o)
      = x (ix1 ⟨min (idx (ix2 o (0 : Fin 1))).toInt.toNat (N - 1), by omega⟩) := by
  unfold Host.gather
  congr 1
  funext a
  obtain rfl : a = 0 := Subsingleton.elim _ _
  refine Fin.ext ?_
  show (vecGatherDims N R wf).start (ix1 o) idx 0 + (vecGatherDims N R wf).batchCoord (ix1 o) 0
      + (vecGatherDims N R wf).offCoord (ix1 o) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 o) ⟨List.idxOf (0 : Fin 1) (vecGatherDims N R wf).startIndexMap,
      List.idxOf_lt_length_iff.2 (List.mem_singleton.mpr rfl)⟩ = ix2 o (0 : Fin 1) := by
    funext b; refine Fin.ext ?_
    match b with
    | ⟨0, _⟩ => rfl
    | ⟨1, _⟩ => rfl
  rw [hsi]
  rfl

/-- A vector laid out as an `[n, 1]` column, read at `(j, 0)`. -/
theorem bcast_col_apply {α : Type} {n : ℕ}
    (h : (⟨1, ![n]⟩ : Shape).BroadcastsInDim ⟨2, ![n, 1]⟩ (![0] : Fin 1 → Fin 2))
    (v : (⟨1, ![n]⟩ : Shape).Idx → α) (j : Fin n) (z : Fin 1) :
    broadcastInDim (⟨2, ![n, 1]⟩ : Shape) (![0] : Fin 1 → Fin 2) h v (ix2 j z) = v (ix1 j) := by
  refine broadcastInDim_apply _ h v (ix2 j z) (ix1 j) (fun a => ?_)
  match a with
  | ⟨0, _⟩ =>
    show j.val = if n = 1 then 0 else j.val
    by_cases hn : n = 1
    · rw [if_pos hn]; have := j.isLt; omega
    · rw [if_neg hn]

/-- THE WRAP OF A NEGATIVE POSITION (`select(v < 0, v + k, v)`, signed) leaves a non-negative word alone. -/
theorem wrap_nonneg (v k : BitVec 32) (h : 0 ≤ v.toInt) :
    Scalar.select (IntOp.cmpi .slt v 0#32) (IntOp.addi v k) v = v := by
  have hs : v.slt 0#32 = false := by
    rw [Bool.eq_false_iff]
    intro hlt
    rw [BitVec.slt_iff_toInt_lt] at hlt
    simp at hlt
    omega
  unfold Scalar.select IntOp.cmpi
  simp only [hs]
  rw [if_neg (by decide)]

/-- The counter word at position `l` below 2^31 is `l` as a signed integer. -/
theorem ofNat_toInt (l : ℕ) (h : l < 2147483648) : (BitVec.ofNat 32 l).toInt = (l : ℤ) := by
  unfold BitVec.toInt
  rw [BitVec.toNat_ofNat, Nat.mod_eq_of_lt (show l < 2 ^ 32 by omega)]
  rw [if_pos (by omega)]

end Cert.LibGraphOps

end
-- ==== Proof.LibNodeEdgeScale.lean ====
/-
  One graph-convolution layer, normalised in two ways, is one function.

  Nodes `i < N` carry rows `H(i, ·)` of `C` features and a scale `d(i)`. Row `n < E` of an edge list names a
  source row (any gather start index, read signed and clamped into `[0, N − 1]`) and a destination `dst(n)`, a
  32-bit word read signed: the row lands on node `s` exactly when that integer is `s`; a destination outside
  `[0, N)` lands nowhere.

  * SCALE THE NODES: gather the rows of `H · d`, add them up per destination, scale the sums by `d` again:
    `(∑_{n lands on s} H(src n, f) · d(src n)) · d(s) + B(s, f)`.
  * SCALE THE EDGES: gather the rows of `H`, scale row `n` by `d(src n) · d(dst n)` (the destination gathered like
    every index: a negative one wrapped by `N`, then clamped), add up per destination:
    `∑_{n lands on s} H(src n, f) · (d(src n) · d(dst n)) + B(s, f)`.

  A row that lands on `s` has `dst n = s`, neither wrapped nor clamped, so its edge factor is `d(src n) · d(s)`, and
  the two agree by moving the common factor `d(s)` out of the sum. On the extended reals that step needs
  `0 ≤ d(s)` and `d(s) ≠ ⊤` and nothing of `H`: multiplication by such a factor distributes over every sum,
  infinite terms of either sign included. `d = rsqrt (max deg 1)` is such a factor whatever `deg` is.
-/
import Idealize.ShloMosaic.Lib.ValueIdx
import Idealize.ShloMosaic.PureOps.Ideal
import Idealize.ShloMosaic.Lib.Pipeline.Value
import proofs.«125503_j67216238182901_2_alg».proof.Proof.LibSegPool
import proofs.«125503_j67216238182901_2_alg».proof.Proof.LibGatherRows
import proofs.«125503_j67216238182901_2_alg».proof.Proof.LibGraphOps

noncomputable section

open scoped BigOperators

namespace Cert.LibNodeEdgeScale

open Idealize.ShloMosaic Idealize.ShloMosaic.ValueIdx
open Cert.LibSegPool Cert.LibGatherRows Cert.LibGraphOps

/-! ## The law on the extended reals -/

/-- A factor `c` with `0 ≤ c`, `c ≠ ⊤` moves out of any finite sum of extended reals. -/
theorem sum_mul_of_nonneg_ne_top {ι : Type*} (t : Finset ι) (g : ι → EReal) (c : EReal) (h0 : 0 ≤ c) (ht : c ≠ ⊤) :
    (∑ e ∈ t, g e) * c = ∑ e ∈ t, g e * c := by
  classical
  induction t using Finset.induction_on with
  | empty => simp
  | insert a t ha ih =>
    rw [Finset.sum_insert ha, Finset.sum_insert ha, EReal.right_distrib_of_nonneg_of_ne_top h0 ht, ih]

/-- `rsqrt` of a number that is at least `1` is a non-negative number other than `⊤`. -/
theorem rsqrt_max_one (x : EReal) : 0 ≤ Ideal.rsqrt (max x 1) ∧ Ideal.rsqrt (max x 1) ≠ ⊤ := by
  have h1 : (1 : EReal) ≤ max x 1 := le_max_right _ _
  generalize max x 1 = y at h1
  induction y using EReal.rec with
  | bot =>
    have hb : (⊥ : EReal) < 1 := by rw [← EReal.coe_one]; exact EReal.bot_lt_coe 1
    exact absurd h1 (not_le.mpr hb)
  | top => exact ⟨by simp, by simp⟩
  | coe r =>
    have hr : (1 : ℝ) ≤ r := by exact_mod_cast h1
    rw [Ideal.rsqrt_coe, if_neg (by linarith), if_neg (by linarith)]
    exact ⟨by exact_mod_cast inv_nonneg.mpr (Real.sqrt_nonneg r), EReal.coe_ne_top _⟩

/-- The inverse square root of an array clamped below by an array of ones, at any index: non-negative, not `⊤`. -/
theorem rsqrt_max_apply {s : Shape} (A ones : FVec Ideal s .f32) (i : s.Idx) (h1 : ones i = 1) :
    0 ≤ Host.rsqrt (maximumf A ones) i ∧ Host.rsqrt (maximumf A ones) i ≠ ⊤ := by
  show 0 ≤ Ideal.rsqrt (max (A i) (ones i)) ∧ Ideal.rsqrt (max (A i) (ones i)) ≠ ⊤
  rw [h1]
  exact rsqrt_max_one _

/-! ## Layout operations of a layer read at an index -/

variable {α : Type}

/-- An `[n, 1]` column laid along the rows of an `[n, c]` array, read at `(p, q)`: the column at row `p`. -/
theorem bcast_rows_apply {n c : ℕ}
    (h : (⟨2, ![n, 1]⟩ : Shape).BroadcastsInDim ⟨2, ![n, c]⟩ (![0, 1] : Fin 2 → Fin 2))
    (v : (⟨2, ![n, 1]⟩ : Shape).Idx → α) (p : Fin n) (q : Fin c) :
    broadcastInDim (⟨2, ![n, c]⟩ : Shape) (![0, 1] : Fin 2 → Fin 2) h v (ix2 p q) = v (ix2 p (0 : Fin 1)) := by
  refine broadcastInDim_apply _ h v (ix2 p q) (ix2 p (0 : Fin 1)) (fun a => ?_)
  match a with
  | ⟨0, _⟩ =>
    show p.val = if n = 1 then 0 else p.val
    by_cases hn : n = 1
    · rw [if_pos hn]; have := p.isLt; omega
    · rw [if_neg hn]
  | ⟨1, _⟩ => rfl

/-- The row a gather start index names: the word read signed, clamped into `[0, N − 1]`. -/
def row (N : ℕ) (hN : 0 < N) (v : BitVec 32) : Fin N := ⟨min v.toInt.toNat (N - 1), by omega⟩

/-- A word whose signed value is `s < N` names row `s`. -/
theorem row_of_toInt {N : ℕ} (hN : 0 < N) (v : BitVec 32) (s : Fin N) (h : v.toInt = (s.val : ℤ)) : row N hN v = s := by
  unfold row
  refine Fin.ext ?_
  show min v.toInt.toNat (N - 1) = s.val
  have := s.isLt
  rw [h]; simp; omega

section Layer

variable {N E C : ℕ} (hN : 0 < N)
  (wfS : ScatterDims.WF ⟨2, ![N, C]⟩ ⟨2, ![E, 1]⟩ ⟨2, ![E, C]⟩ [1] [0] [0] 1)
  (wfG : GatherDims.WF ⟨2, ![N, C]⟩ ⟨2, ![E, 1]⟩ ⟨2, ![E, C]⟩ [1] [0] [] [0] [] 1 ![1, C])
  (wfV : GatherDims.WF ⟨1, ![N]⟩ ⟨2, ![E, 1]⟩ ⟨1, ![E]⟩ [] [0] [] [0] [] 1 ![1])
  (hbN1 : (⟨1, ![N]⟩ : Shape).BroadcastsInDim ⟨2, ![N, 1]⟩ (![0] : Fin 1 → Fin 2))
  (hbN2 : (⟨2, ![N, 1]⟩ : Shape).BroadcastsInDim ⟨2, ![N, C]⟩ (![0, 1] : Fin 2 → Fin 2))
  (hbE1 : (⟨1, ![E]⟩ : Shape).BroadcastsInDim ⟨2, ![E, 1]⟩ (![0] : Fin 1 → Fin 2))
  (hbE2 : (⟨2, ![E, 1]⟩ : Shape).BroadcastsInDim ⟨2, ![E, C]⟩ (![0, 1] : Fin 2 → Fin 2))
  (hlt : FTy.bits .bf16 < FTy.bits .f32)

/-- The segment sum of an `[E, C]` array into `[N, C]` read at `(s, f)`, as the host operation prints it. -/
theorem scatterAdd_apply (x : FVec Ideal ⟨2, ![N, C]⟩ .f32) (idx : IVec ⟨2, ![E, 1]⟩ 32) (upd : FVec Ideal ⟨2, ![E, C]⟩ .f32)
    (s : Fin N) (f : Fin C) :
    Host.scatterAdd (F := Ideal) (poolDims N E C wfS) x idx upd (ix2 s f)
      = x (ix2 s f) + ∑ n : Fin E, (if (idx (ix2 n (0 : Fin 1))).toInt = (s.val : ℤ) then upd (ix2 n f) else 0) :=
  scatterAdd_pool_apply wfS x idx upd s f

/-- The element gather of `x` at a vector of positions laid out as a column, read at `o`: `x` at the row the
    position names. -/
theorem gather_vec_col_apply (x : FVec Ideal ⟨1, ![N]⟩ .f32) (v : IVec ⟨1, ![E]⟩ 32) (o : Fin E) :
    Host.gather (vecGatherDims N E wfV) x (broadcastInDim (⟨2, ![E, 1]⟩ : Shape) (![0] : Fin 1 → Fin 2) hbE1 v) (ix1 o)
      = x (ix1 (row N hN (v (ix1 o)))) :=
  (gather_vec_apply hN wfV x _ o).trans
    (congrArg (fun w => x (ix1 (row N hN w))) (bcast_col_apply hbE1 v o (0 : Fin 1)))

/-- SCALE THE NODES: the rows of `H · d` (rounded to a narrower format and back: the identity here) gathered at
    `srcIdx`, summed per destination into `Z`, scaled by `d`, plus `B`. -/
def nodeScaled (H : FVec Ideal ⟨2, ![N, C]⟩ .f32) (d : FVec Ideal ⟨1, ![N]⟩ .f32) (srcIdx : IVec ⟨2, ![E, 1]⟩ 32)
    (dstw : IVec ⟨1, ![E]⟩ 32) (Z B : FVec Ideal ⟨2, ![N, C]⟩ .f32) : FVec Ideal ⟨2, ![N, C]⟩ .f32 :=
  addf (mulf (Host.scatterAdd (poolDims N E C wfS) Z (broadcastInDim (⟨2, ![E, 1]⟩ : Shape) (![0] : Fin 1 → Fin 2) hbE1 dstw)
      (extf .f32 (Host.gather (rowsDims N C E wfG)
        (truncf .bf16 (mulf H (broadcastInDim (⟨2, ![N, C]⟩ : Shape) (![0, 1] : Fin 2 → Fin 2) hbN2
          (broadcastInDim (⟨2, ![N, 1]⟩ : Shape) (![0] : Fin 1 → Fin 2) hbN1 d))) hlt) srcIdx) hlt))
    (broadcastInDim (⟨2, ![N, C]⟩ : Shape) (![0, 1] : Fin 2 → Fin 2) hbN2
      (broadcastInDim (⟨2, ![N, 1]⟩ : Shape) (![0] : Fin 1 → Fin 2) hbN1 d))) B

/-- The destination as a gather start index: a negative word wrapped by `kN`. -/
def wrapped (dstw zeros kN : IVec ⟨1, ![E]⟩ 32) : IVec ⟨1, ![E]⟩ 32 :=
  select (cmpi .slt dstw zeros) (addi dstw kN) dstw

/-- SCALE THE EDGES: the rows of `H` gathered at `srcIdx`, row `n` scaled by `d(src n) · d(dst n)`, summed per
    destination into `Z`, plus `B`. -/
def edgeScaled (H : FVec Ideal ⟨2, ![N, C]⟩ .f32) (d : FVec Ideal ⟨1, ![N]⟩ .f32) (srcIdx : IVec ⟨2, ![E, 1]⟩ 32)
    (dstw zeros kN : IVec ⟨1, ![E]⟩ 32) (Z B : FVec Ideal ⟨2, ![N, C]⟩ .f32) : FVec Ideal ⟨2, ![N, C]⟩ .f32 :=
  addf (Host.scatterAdd (poolDims N E C wfS) Z (broadcastInDim (⟨2, ![E, 1]⟩ : Shape) (![0] : Fin 1 → Fin 2) hbE1 dstw)
    (mulf (Host.gather (rowsDims N C E wfG) H srcIdx)
      (broadcastInDim (⟨2, ![E, C]⟩ : Shape) (![0, 1] : Fin 2 → Fin 2) hbE2
        (broadcastInDim (⟨2, ![E, 1]⟩ : Shape) (![0] : Fin 1 → Fin 2) hbE1
          (mulf (Host.gather (vecGatherDims N E wfV) d srcIdx)
            (Host.gather (vecGatherDims N E wfV) d
              (broadcastInDim (⟨2, ![E, 1]⟩ : Shape) (![0] : Fin 1 → Fin 2) hbE1 (wrapped dstw zeros kN)))))))) B

/-- The node-scaled layer at `(s, f)`. -/
theorem nodeScaled_apply (H : FVec Ideal ⟨2, ![N, C]⟩ .f32) (d : FVec Ideal ⟨1, ![N]⟩ .f32) (srcIdx : IVec ⟨2, ![E, 1]⟩ 32)
    (dstw : IVec ⟨1, ![E]⟩ 32) (Z B : FVec Ideal ⟨2, ![N, C]⟩ .f32) (hZ : ∀ i, Z i = 0) (s : Fin N) (f : Fin C) :
    nodeScaled wfS wfG hbN1 hbN2 hbE1 hlt H d srcIdx dstw Z B (ix2 s f)
      = (∑ n : Fin E, (if (dstw (ix1 n)).toInt = (s.val : ℤ)
            then H (ix2 (row N hN (srcIdx (ix2 n (0 : Fin 1)))) f) * d (ix1 (row N hN (srcIdx (ix2 n (0 : Fin 1))))) else 0))
          * d (ix1 s) + B (ix2 s f) := by
  unfold nodeScaled
  rw [addf_apply, mulf_apply, scatterAdd_apply, hZ, zero_add, bcast_rows_apply, bcast_col_apply]
  refine congrArg (fun t => t * d (ix1 s) + B (ix2 s f)) (Finset.sum_congr rfl fun n _ => ?_)
  rw [bcast_col_apply]
  refine if_congr Iff.rfl ?_ rfl
  rw [extf_apply, gather_rows_apply hN, truncf_apply, mulf_apply, bcast_rows_apply, bcast_col_apply]
  rfl

/-- The edge-scaled layer at `(s, f)`: row `n`'s factor is `d` at its source row times `d` at its wrapped and
    clamped destination. -/
theorem edgeScaled_apply (H : FVec Ideal ⟨2, ![N, C]⟩ .f32) (d : FVec Ideal ⟨1, ![N]⟩ .f32) (srcIdx : IVec ⟨2, ![E, 1]⟩ 32)
    (dstw zeros kN : IVec ⟨1, ![E]⟩ 32) (Z B : FVec Ideal ⟨2, ![N, C]⟩ .f32) (hZ : ∀ i, Z i = 0) (s : Fin N) (f : Fin C) :
    edgeScaled wfS wfG wfV hbE1 hbE2 H d srcIdx dstw zeros kN Z B (ix2 s f)
      = (∑ n : Fin E, (if (dstw (ix1 n)).toInt = (s.val : ℤ)
            then H (ix2 (row N hN (srcIdx (ix2 n (0 : Fin 1)))) f)
              * (d (ix1 (row N hN (srcIdx (ix2 n (0 : Fin 1))))) * d (ix1 (row N hN (wrapped dstw zeros kN (ix1 n))))) else 0))
          + B (ix2 s f) := by
  unfold edgeScaled
  rw [addf_apply, scatterAdd_apply, hZ, zero_add]
  refine congrArg (fun t => t + B (ix2 s f)) (Finset.sum_congr rfl fun n _ => ?_)
  rw [bcast_col_apply]
  refine if_congr Iff.rfl ?_ rfl
  rw [mulf_apply, gather_rows_apply hN, bcast_rows_apply, bcast_col_apply, mulf_apply, gather_vec_apply hN wfV d srcIdx n,
    gather_vec_col_apply hN wfV hbE1 d (wrapped dstw zeros kN) n]
  rfl

include hN in
/-- THE TWO LAYERS AGREE when the scale is non-negative and not `⊤`, the sums start from zero, and the wrap
    compares with the zero word. -/
theorem nodeScaled_eq_edgeScaled (H : FVec Ideal ⟨2, ![N, C]⟩ .f32) (d : FVec Ideal ⟨1, ![N]⟩ .f32) (srcIdx : IVec ⟨2, ![E, 1]⟩ 32)
    (dstw zeros kN : IVec ⟨1, ![E]⟩ 32) (Z B : FVec Ideal ⟨2, ![N, C]⟩ .f32) (hZ : ∀ i, Z i = 0)
    (hzeros : ∀ i, zeros i = 0#32) (hd : ∀ i, 0 ≤ d i ∧ d i ≠ ⊤) :
    nodeScaled wfS wfG hbN1 hbN2 hbE1 hlt H d srcIdx dstw Z B
      = edgeScaled wfS wfG wfV hbE1 hbE2 H d srcIdx dstw zeros kN Z B := by
  funext j
  obtain ⟨s, f, rfl⟩ : ∃ (s : Fin N) (f : Fin C), j = ix2 s f := ⟨j 0, j 1, eq_ix2 j⟩
  rw [nodeScaled_apply hN wfS wfG hbN1 hbN2 hbE1 hlt H d srcIdx dstw Z B hZ s f,
    edgeScaled_apply hN wfS wfG wfV hbE1 hbE2 H d srcIdx dstw zeros kN Z B hZ s f,
    sum_mul_of_nonneg_ne_top _ _ _ (hd (ix1 s)).1 (hd (ix1 s)).2]
  refine congrArg (fun t => t + B (ix2 s f)) (Finset.sum_congr rfl fun n _ => ?_)
  by_cases hn : (dstw (ix1 n)).toInt = (s.val : ℤ)
  · rw [if_pos hn, if_pos hn, mul_assoc]
    -- a row that lands on `s` has a non-negative destination word: the wrap leaves it alone, and it names row `s`
    have hw : wrapped dstw zeros kN (ix1 n) = dstw (ix1 n) := by
      show Scalar.select (IntOp.cmpi .slt (dstw (ix1 n)) (zeros (ix1 n))) (IntOp.addi (dstw (ix1 n)) (kN (ix1 n))) (dstw (ix1 n)) = _
      rw [hzeros]
      exact wrap_nonneg _ _ (by rw [hn]; exact Int.natCast_nonneg _)
    rw [hw, row_of_toInt hN _ s hn]
  · rw [if_neg hn, if_neg hn, zero_mul]

end Layer

end Cert.LibNodeEdgeScale

end
-- ==== Proof.LibRecipDiv.lean ====
/-
  Dividing by a nonzero extended real is multiplying by its reciprocal.

  On the extended reals the ideal quotient x / y is x · y⁻¹ whenever y ≠ 0 (y may be infinite: its inverse is then 0),
  and 1 / y is y⁻¹.  So a program that scales by a precomputed reciprocal 1 / c and one that divides by c agree as soon
  as c is not zero — no finiteness of x or c is needed.  A count clamped below by one (max n 1) is such a c.
-/
import Idealize.ShloMosaic.PureOps.Ideal.Laws

noncomputable section

namespace Cert.LibRecipDiv

open Idealize.ShloMosaic

/-- The f32 word 0x3F800000 denotes the number one. -/
theorem ofBits_one_f32 : Ideal.ofBits .f32 0x3F800000#32 = 1 := by
  simp [Ideal.ofBits, Ideal.ieee, -EReal.coe_mul]; norm_num

/-- For `c ≠ 0` (finite or not), `x · (1 / c) = x / c` at the ideal values: both are `x · c⁻¹`. -/
theorem mul_one_div (x c : EReal) (hc : c ≠ 0) : x * Ideal.div 1 c = Ideal.div x c := by
  unfold Ideal.div
  rw [if_neg hc, if_neg hc, one_mul]

/-- Anything clamped below by one is not zero. -/
theorem max_one_ne_zero (n : EReal) : max n 1 ≠ 0 :=
  (lt_of_lt_of_le zero_lt_one (le_max_right n 1)).ne'

/-- The same with the one spelt as its f32 word, as a clamp against a float constant prints. -/
theorem max_oneWord_ne_zero (n : EReal) : max n (Ideal.ofBits .f32 0x3F800000#32) ≠ 0 := by
  rw [ofBits_one_f32]
  exact max_one_ne_zero n

end Cert.LibRecipDiv

end
-- ==== Proof.RefBridge.lean ====
/-
  The kernel's function of its arguments is the reference's.

  Both programs compute the same edge rows, degrees, scales and gather positions from the edge list, start every sum
  from zero, add the same bias rows, apply `max · 0` alike and end with the same pooling and head: those parts are the
  same operations on the same arrays, identified one by one. They differ in two places per layer. The kernel multiplies
  block by block into one product of the whole arrays where the reference multiplies the whole arrays at once: one
  function. And the kernel scales the nodes before gathering and after adding up, where the reference scales every edge
  row by the product of its two ends' scales: one function again, because the scale `rsqrt (max deg 1)` is a
  non-negative number other than `⊤` and such a factor moves out of any sum of extended reals. Layer by layer the
  inputs of the next layer agree, so the results do.
-/
import proofs.«125503_j67216238182901_2_alg».proof.Proof.Gen.ReferenceIdeal.Read
import proofs.«125503_j67216238182901_2_alg».proof.Proof.KernelStages
import proofs.«125503_j67216238182901_2_alg».proof.Proof.LibNodeEdgeScale
import proofs.«125503_j67216238182901_2_alg».proof.Proof.LibPlainDot
import proofs.«125503_j67216238182901_2_alg».proof.Proof.LibRecipDiv
import proofs.«125503_j67216238182901_2_alg».proof.Proof.MatSpec

set_option maxRecDepth 16384

noncomputable section

namespace Cert.RefBridge

open Idealize.ShloMosaic Idealize.ShloMosaic.ValueIdx Cert.MatSpec Cert.LibNodeEdgeScale
open Cert.KernelIdeal.Stages Cert.ReferenceIdeal.Read

variable [hK : Cert.KernelIdeal.Facts] [hR : Cert.ReferenceIdeal.Facts]

/-! ## The product -/

/-- The product of the whole arrays is the host's `dot_general` of them. -/
theorem mm_eq_dot (X : FVec Ideal Cert.KernelIdeal.S50000x128 .f32) (W : FVec Ideal Cert.KernelIdeal.S128x128 .f32) :
    mm (M := 50000) (K := 128) (N := 128) X W
      = Host.dotGeneral Cert.ReferenceIdeal.dot_S50000x128_S128x128_S50000x128_1_0_0_1_n_n none X W := by
  funext j
  obtain ⟨p, q, rfl⟩ : ∃ (p : Fin 50000) (q : Fin 128), j = ix2 p q := ⟨j 0, j 1, eq_ix2 j⟩
  rw [mm_apply]
  exact (Cert.LibPlainDot.dotGeneral_apply (M := 50000) (K := 128) (N := 128) none .single X W p q).symm

/-! ## The shared parts, identified -/

theorem dst_eq (x1 : IVec Cert.KernelIdeal.S2x800000 32) : dst x1 = val_main_v6 (F := Ideal) x1 := rfl
theorem dinv_eq (x1 : IVec Cert.KernelIdeal.S2x800000 32) : dinv x1 = val_main_v13 (F := Ideal) x1 := rfl
theorem srcIdx_eq1 (x1 : IVec Cert.KernelIdeal.S2x800000 32) : srcIdx x1 = val_main_v35 (F := Ideal) x1 := rfl
theorem srcIdx_eq2 (x1 : IVec Cert.KernelIdeal.S2x800000 32) : srcIdx x1 = val_main_v53 (F := Ideal) x1 := rfl
theorem srcIdx_eq3 (x1 : IVec Cert.KernelIdeal.S2x800000 32) : srcIdx x1 = val_main_v71 (F := Ideal) x1 := rfl

/-- The sums start from zero. -/
theorem zero2_apply (i : Cert.KernelIdeal.S50000x128.Idx) : zero2 i = 0 :=
  (show zero2 i = Ideal.ofBits .f32 0x00000000#32 from rfl).trans Ideal.ofBits_zero_f32

/-- The wrap compares with the zero word. -/
theorem zeros_apply (i : Cert.ReferenceIdeal.S850000.Idx) : val_main_v21 (F := Ideal) i = 0#32 := rfl

/-- Every node's scale is a non-negative number other than `⊤`: the inverse square root of a degree clamped below at
    one. -/
theorem dinv_bounds (x1 : IVec Cert.KernelIdeal.S2x800000 32) (i : Cert.KernelIdeal.S50000.Idx) : 0 ≤ dinv x1 i ∧ dinv x1 i ≠ ⊤ :=
  rsqrt_max_apply _ _ i ((show _ = Ideal.ofBits .f32 0x3F800000#32 from rfl).trans Cert.LibRecipDiv.ofBits_one_f32)

/-! ## One layer -/

/-- The kernel's layer on features `H` is the edge-scaled aggregation of `H` over the reference's scales and edge
    rows. -/
theorem layer_bridge (H : FVec Ideal Cert.KernelIdeal.S50000x128 .f32) (x1 : IVec Cert.KernelIdeal.S2x800000 32) (b : FVec Ideal Cert.KernelIdeal.S128 .f32) :
    layer H x1 b
      = edgeScaled (N := 50000) (E := 850000) (C := 128)
          Cert.KernelIdeal.Facts₀.scatter_S50000x128_S850000x1_S850000x128_1_0_0_1_wf
          Cert.KernelIdeal.Facts₀.gather_S50000x128_S850000x1_S850000x128_1_0_n_n_0_1_1128_wf
          Cert.ReferenceIdeal.Facts₀.gather_S50000_S850000x1_S850000_n_0_n_n_0_1_1_wf
          Cert.KernelIdeal.Facts₀.bcast_S850000_S850000x1_0 Cert.ReferenceIdeal.Facts₀.bcast_S850000x1_S850000x128_0_1
          H (dinv x1) (srcIdx x1) (dst x1) (val_main_v21 (F := Ideal)) (val_main_v23 (F := Ideal)) zero2 (bias b) :=
  (show layer H x1 b = nodeScaled (N := 50000) (E := 850000) (C := 128)
      Cert.KernelIdeal.Facts₀.scatter_S50000x128_S850000x1_S850000x128_1_0_0_1_wf
      Cert.KernelIdeal.Facts₀.gather_S50000x128_S850000x1_S850000x128_1_0_n_n_0_1_1128_wf
      Cert.KernelIdeal.Facts₀.bcast_S50000_S50000x1_0 Cert.KernelIdeal.Facts₀.bcast_S50000x1_S50000x128_0_1
      Cert.KernelIdeal.Facts₀.bcast_S850000_S850000x1_0 Cert.KernelIdeal.Facts₀.bitsLt_bf16_f32
      H (dinv x1) (srcIdx x1) (dst x1) zero2 (bias b) from rfl).trans
    (nodeScaled_eq_edgeScaled (N := 50000) (E := 850000) (C := 128) (by decide) _ _ _ _ _ _ _ _
      H (dinv x1) (srcIdx x1) (dst x1) _ _ zero2 (bias b) zero2_apply zeros_apply (dinv_bounds x1))

/-! ## The three layers and the whole program -/

variable (x0 : FVec Ideal Cert.KernelIdeal.S50000x128 .f32) (x1 : IVec Cert.KernelIdeal.S2x800000 32) (x2 : IVec Cert.KernelIdeal.S50000 32)
  (x3 : FVec Ideal Cert.KernelIdeal.S128x128 .f32) (x4 : FVec Ideal Cert.KernelIdeal.S128 .f32) (x5 : FVec Ideal Cert.KernelIdeal.S128x128 .f32) (x6 : FVec Ideal Cert.KernelIdeal.S128 .f32)
  (x7 : FVec Ideal Cert.KernelIdeal.S128x128 .f32) (x8 : FVec Ideal Cert.KernelIdeal.S128 .f32) (x9 : FVec Ideal Cert.KernelIdeal.S128x64 .f32) (x10 : FVec Ideal Cert.KernelIdeal.S64 .f32)
  (x11 : FVec Ideal Cert.KernelIdeal.S64x1 .f32) (x12 : FVec Ideal Cert.KernelIdeal.S1 .f32)

/-- Layer 1 on the product of the node features and the first weights. -/
theorem layer1_eq : layer (mm (M := 50000) (K := 128) (N := 128) x0 x3) x1 x4 = val_main_v45 (F := Ideal) x0 x1 x3 x4 := by
  rw [layer_bridge, mm_eq_dot]; rfl

/-- Layer 2 on the product of layer 1's output, clamped below at zero, and the second weights. -/
theorem layer2_eq : layer (mm (M := 50000) (K := 128) (N := 128) (relu (val_main_v45 (F := Ideal) x0 x1 x3 x4)) x5) x1 x6
    = val_main_v63 (F := Ideal) x0 x1 x3 x4 x5 x6 := by
  rw [layer_bridge, mm_eq_dot]; rfl

/-- Layer 3 on the product of layer 2's output, clamped below at zero, and the third weights. -/
theorem layer3_eq : layer (mm (M := 50000) (K := 128) (N := 128) (relu (val_main_v63 (F := Ideal) x0 x1 x3 x4 x5 x6)) x7) x1 x8
    = val_main_v81 (F := Ideal) x0 x1 x3 x4 x5 x6 x7 x8 := by
  rw [layer_bridge, mm_eq_dot]; rfl

/-- THE TWO PROGRAMS ARE ONE FUNCTION of their thirteen arguments. -/
theorem all_eq : Cert.KernelIdeal.Stages.all x0 x1 x2 x3 x4 x5 x6 x7 x8 x9 x10 x11 x12
    = val_main_v102 (F := Ideal) x0 x1 x2 x3 x4 x5 x6 x7 x8 x9 x10 x11 x12 := by
  unfold Cert.KernelIdeal.Stages.all
  rw [layer1_eq x0 x1 x3 x4, layer2_eq x0 x1 x3 x4 x5 x6, layer3_eq x0 x1 x3 x4 x5 x6 x7 x8]
  rfl

end Cert.RefBridge

end
-- ==== Proof.lean ====
/- The five claims of this certificate.

   The kernel is a three-layer graph convolution over 50000 nodes and 800000 edges (one self loop per node appended),
   followed by a mean over each of 64 graphs and a two-layer head. Each layer's product with its weight matrix is a
   tiled region: ten blocks of 5000 rows, each block the product of its rows with the whole 128×128 matrix, so the
   region's output array is the product of the whole arrays. Around the regions the host computes the degrees, the
   scale `dinv = rsqrt (max deg 1)` of every node, the gathers and the per-destination sums. The reference computes the
   same with one `dot_general` per layer and scales every edge row by `dinv (src) · dinv (dst)` where the kernel scales
   the nodes by `dinv` before the gather and again after the sum.

   At the ideal values a change of float format is the identity, a tiled product and a whole product are one function,
   and a factor that is non-negative and not `⊤` moves out of any sum of extended reals — whatever the summands are,
   infinite ones included — so node scaling and edge scaling agree with no appeal to the finiteness of the inputs:
   `dinv` is such a factor for every edge list. A row that lands on node `s` has destination word `s` exactly, so the
   reference's gather of `dinv` at the destination (wrapped if negative, clamped) reads `dinv s`.

   The frames of the two kernel programs are the generated ones; the reference's frame is its generated run with the
   result dropped. The ideal pass rewrote nothing, so `preserves` is `True`. -/
import proofs.«125503_j67216238182901_2_alg».proof.Defs
import proofs.«125503_j67216238182901_2_alg».proof.Proof.Gen.Kernel
import proofs.«125503_j67216238182901_2_alg».proof.Proof.Gen.Kernel.Skeleton
import proofs.«125503_j67216238182901_2_alg».proof.Proof.Gen.Kernel.Launch
import proofs.«125503_j67216238182901_2_alg».proof.Proof.Gen.Kernel.Points
import proofs.«125503_j67216238182901_2_alg».proof.Proof.Gen.Kernel.Frame
import proofs.«125503_j67216238182901_2_alg».proof.Proof.Gen.KernelIdeal
import proofs.«125503_j67216238182901_2_alg».proof.Proof.Gen.KernelIdeal.Skeleton
import proofs.«125503_j67216238182901_2_alg».proof.Proof.Gen.KernelIdeal.Launch
import proofs.«125503_j67216238182901_2_alg».proof.Proof.Gen.KernelIdeal.Points
import proofs.«125503_j67216238182901_2_alg».proof.Proof.Gen.KernelIdeal.Frame
import proofs.«125503_j67216238182901_2_alg».proof.Proof.Gen.ReferenceIdeal
import proofs.«125503_j67216238182901_2_alg».proof.Proof.Gen.Pre_finite_inputs
import proofs.«125503_j67216238182901_2_alg».proof.Proof.Gen.ReferenceIdeal.Run
import proofs.«125503_j67216238182901_2_alg».proof.Proof.Gen.ReferenceIdeal.Read
import proofs.«125503_j67216238182901_2_alg».proof.Proof.KernelRun
import proofs.«125503_j67216238182901_2_alg».proof.Proof.KernelValue
import proofs.«125503_j67216238182901_2_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel runs and leaves its arguments as launched: the generated frame of its three regions. -/
theorem frame_p : Cert.frame_Kernel := fun m ρ _ => Cert.Kernel.Gen.frame m ρ

/-- So does the kernel read at the ideal values. -/
theorem frame_pi : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values the kernel's result array ends at the program's function of the argument arrays (each region
    the product of whole arrays, the host lines around them read as one line) and the reference's at its own composed
    term of arguments that agree: one function, layer by layer. -/
theorem algebraic : Cert.algebraic_KernelIdeal_ReferenceIdeal := by
  intro m ρ m' ρ' _ hagree
  refine ⟨fun c => Cert.KernelIdeal.Stages.all
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.HostValue.result_eq m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v102_eq, h0, h1, h2, h3, h4, h5, h6, h7, h8, h9, h10, h11, h12]
    exact (Cert.RefBridge.all_eq _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
